-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x8x1024 : Shape := ⟨3, ![64, 8, 1024]⟩
abbrev S2x1x1 : Shape := ⟨3, ![2, 1, 1]⟩
abbrev S64x8x128 : Shape := ⟨3, ![64, 8, 128]⟩
abbrev S1x1x1 : Shape := ⟨3, ![1, 1, 1]⟩
abbrev S1x1 : Shape := ⟨2, ![1, 1]⟩
abbrev S1x1x128 : Shape := ⟨3, ![1, 1, 128]⟩
abbrev S64x128x128 : Shape := ⟨3, ![64, 128, 128]⟩
abbrev S64x1x128 : Shape := ⟨3, ![64, 1, 128]⟩
abbrev S64x128 : Shape := ⟨2, ![64, 128]⟩
abbrev S64x128x1 : Shape := ⟨3, ![64, 128, 1]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S1 : Shape := ⟨1, ![1]⟩
abbrev S64 : Shape := ⟨1, ![64]⟩
abbrev S64x1 : Shape := ⟨2, ![64, 1]⟩
abbrev S2 : Shape := ⟨1, ![2]⟩
abbrev S_ : Shape := ⟨0, ![]⟩

abbrev nBuf : Space → Nat
  | .hbm => 14
  | .vmem => 8
  | .smem => 0
  | _ => 0

abbrev bufTy : (tb : Table) → Fin (tcTables nBuf tb) → BufTy
  | .hbm, ⟨0, _⟩ => ⟨S64x8x1024, .i32⟩
  | .hbm, ⟨1, _⟩ => ⟨S2x1x1, .f32⟩
  | .hbm, ⟨2, _⟩ => ⟨S2x1x1, .f32⟩
  | .hbm, ⟨3, _⟩ => ⟨S2, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S64x8x128, .i32⟩
  | .local _ .vmem, ⟨1, _⟩ => ⟨S64x8x128, .i32⟩
  | .local _ .vmem, ⟨2, _⟩ => ⟨S1x1x1, .f32⟩
  | .local _ .vmem, ⟨3, _⟩ => ⟨S1x1x1, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | .local _ .vmem, ⟨7, _⟩ => ⟨S1x1, .f32⟩
  | _, _ => ⟨S64x8x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v153 : BitVec 1 := Scalar.cmpi .eq arg1 c3_i32
  let v154 : BitVec 32 := Scalar.extui v153
  let c0_i32_46 : BitVec 32 := 0#32
  let v155 : BitVec 1 := Scalar.cmpi .ne v154 c0_i32_46
  v155

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S1x1x128_d2_w32 : S1x1x128.Iotas .tc 32 [2]
  inb_S64x8x128_S64x1x128_0_0_0 : ∀ a, (![0, 0, 0] : Fin 3 → Nat) a + S64x1x128.size a ≤ S64x8x128.size a
  h_S64x1x128 : 0 < S64x1x128.numel
  shapeCasts_S64x1x128_S64x128 : S64x1x128.ShapeCasts S64x128
  shapeCasts_S64x128_S64x128x1 : S64x128.ShapeCasts S64x128x1
  broadcasts_S64x128x1_S64x128x128 : S64x128x1.Broadcasts S64x128x128
  broadcasts_S1x1x128_S64x128x128 : S1x1x128.Broadcasts S64x128x128
  natLt_1_32 : 1 < 32
  bitsLt_bf16_f32 : FTy.bits .bf16 < FTy.bits .f32
  inb_S64x8x128_S64x1x128_0_1_0 : ∀ a, (![0, 1, 0] : Fin 3 → Nat) a + S64x1x128.size a ≤ S64x8x128.size a
  inb_S64x8x128_S64x1x128_0_2_0 : ∀ a, (![0, 2, 0] : Fin 3 → Nat) a + S64x1x128.size a ≤ S64x8x128.size a
  inb_S64x8x128_S64x1x128_0_3_0 : ∀ a, (![0, 3, 0] : Fin 3 → Nat) a + S64x1x128.size a ≤ S64x8x128.size a
  inb_S64x8x128_S64x1x128_0_4_0 : ∀ a, (![0, 4, 0] : Fin 3 → Nat) a + S64x1x128.size a ≤ S64x8x128.size a
  inb_S64x8x128_S64x1x128_0_5_0 : ∀ a, (![0, 5, 0] : Fin 3 → Nat) a + S64x1x128.size a ≤ S64x8x128.size a
  inb_S64x8x128_S64x1x128_0_6_0 : ∀ a, (![0, 6, 0] : Fin 3 → Nat) a + S64x1x128.size a ≤ S64x8x128.size a
  inb_S64x8x128_S64x1x128_0_7_0 : ∀ a, (![0, 7, 0] : Fin 3 → Nat) a + S64x1x128.size a ≤ S64x8x128.size a
  reduces_S64x128x128_S128x128 : S64x128x128.Reduces [0] S128x128
  shapeCasts_S128x128_S1x128x128 : S128x128.ShapeCasts S1x128x128
  broadcasts_S1x128x128_S64x128x128 : S1x128x128.Broadcasts S64x128x128
  reduces_S128x128_S128 : S128x128.Reduces [1] S128
  shapeCasts_S128_S128x1 : S128.ShapeCasts S128x1
  reduces_S128x1_S1 : S128x1.Reduces [0] S1
  shapeCasts_S1_S1x1 : S1.ShapeCasts S1x1
  reduces_S64x128x128_S64x128 : S64x128x128.Reduces [2] S64x128
  reduces_S64x128_S64 : S64x128.Reduces [1] S64
  shapeCasts_S64_S64x1 : S64.ShapeCasts S64x1
  reduces_S64x1_S1 : S64x1.Reduces [0] S1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8x128.size a ≤ S64x8x1024.size a
  hwx0_0 : ∀ i : grid0.Coords, EltTy.bits .i32 = 32 ∨ (Rect.block (s := S64x8x1024) S64x8x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1.size a ≤ S2x1x1.size a
  hwx0_1 : ∀ i : grid0.Coords, EltTy.bits .f32 = 32 ∨ (Rect.block (s := S2x1x1) S1x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S64x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x8x1024 : Shape := ⟨3, ![64, 8, 1024]⟩
abbrev S_ : Shape := ⟨0, ![]⟩
abbrev S64x8x1024x1 : Shape := ⟨4, ![64, 8, 1024, 1]⟩
abbrev S1x1x1x128 : Shape := ⟨4, ![1, 1, 1, 128]⟩
abbrev S64x8x1024x128 : Shape := ⟨4, ![64, 8, 1024, 128]⟩
abbrev S64x1024x128 : Shape := ⟨3, ![64, 1024, 128]⟩
abbrev S64x131072 : Shape := ⟨2, ![64, 131072]⟩
abbrev S131072 : Shape := ⟨1, ![131072]⟩
abbrev S1x131072 : Shape := ⟨2, ![1, 131072]⟩
abbrev S64x8x131072 : Shape := ⟨3, ![64, 8, 131072]⟩
abbrev S64x1x131072 : Shape := ⟨3, ![64, 1, 131072]⟩
abbrev S64 : Shape := ⟨1, ![64]⟩

abbrev nBuf : Space → Nat
  | .hbm => 76
  | .vmem => 0
  | .smem => 0
  | _ => 0

abbrev bufTy : (tb : Table) → Fin (tcTables nBuf tb) → BufTy
  | .hbm, ⟨0, _⟩ => ⟨S64x8x1024, .i32⟩
  | .hbm, ⟨1, _⟩ => ⟨S_, .i32⟩
  | .hbm, ⟨2, _⟩ => ⟨S64x8x1024, .i32⟩
  | .hbm, ⟨3, _⟩ => ⟨S64x8x1024, .i32⟩
  | .hbm, ⟨4, _⟩ => ⟨S64x8x1024x1, .i32⟩
  | .hbm, ⟨5, _⟩ => ⟨S1x1x1x128, .i32⟩
  | .hbm, ⟨6, _⟩ => ⟨S64x8x1024x128, .i32⟩
  | .hbm, ⟨7, _⟩ => ⟨S64x8x1024x128, .i32⟩
  | .hbm, ⟨8, _⟩ => ⟨S64x8x1024x128, .i1⟩
  | .hbm, ⟨9, _⟩ => ⟨S64x8x1024x128, .f32⟩
  | .hbm, ⟨10, _⟩ => ⟨S_, .f32⟩
  | .hbm, ⟨11, _⟩ => ⟨S64x1024x128, .f32⟩
  | .hbm, ⟨12, _⟩ => ⟨S_, .f32⟩
  | .hbm, ⟨13, _⟩ => ⟨S64x1024x128, .f32⟩
  | .hbm, ⟨14, _⟩ => ⟨S64x1024x128, .f32⟩
  | .hbm, ⟨15, _⟩ => ⟨S64x131072, .f32⟩
  | .hbm, ⟨16, _⟩ => ⟨S_, .i32⟩
  | .hbm, ⟨17, _⟩ => ⟨S_, .f32⟩
  | .hbm, ⟨18, _⟩ => ⟨S131072, .f32⟩
  | .hbm, ⟨19, _⟩ => ⟨S1x131072, .f32⟩
  | .hbm, ⟨20, _⟩ => ⟨S_, .f32⟩
  | .hbm, ⟨21, _⟩ => ⟨S1x131072, .f32⟩
  | .hbm, ⟨22, _⟩ => ⟨S1x131072, .f32⟩
  | .hbm, ⟨23, _⟩ => ⟨S64x131072, .f32⟩
  | .hbm, ⟨24, _⟩ => ⟨S64x131072, .f32⟩
  | .hbm, ⟨25, _⟩ => ⟨S64x131072, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S131072, .f32⟩
  | .hbm, ⟨31, _⟩ => ⟨S131072, .f32⟩
  | .hbm, ⟨32, _⟩ => ⟨S131072, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S131072, .f32⟩
  | .hbm, ⟨38, _⟩ => ⟨S131072, .f32⟩
  | .hbm, ⟨39, _⟩ => ⟨S131072, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S64x8x131072, .f32⟩
  | .hbm, ⟨45, _⟩ => ⟨S_, .i32⟩
  | .hbm, ⟨46, _⟩ => ⟨S_, .f32⟩
  | .hbm, ⟨47, _⟩ => ⟨S64x131072, .f32⟩
  | .hbm, ⟨48, _⟩ => ⟨S64x1x131072, .f32⟩
  | .hbm, ⟨49, _⟩ => ⟨S_, .f32⟩
  | .hbm, ⟨50, _⟩ => ⟨S64x1x131072, .f32⟩
  | .hbm, ⟨51, _⟩ => ⟨S64x1x131072, .f32⟩
  | .hbm, ⟨52, _⟩ => ⟨S64x8x131072, .f32⟩
  | .hbm, ⟨53, _⟩ => ⟨S64x8x131072, .f32⟩
  | .hbm, ⟨54, _⟩ => ⟨S64x8x131072, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S64x131072, .f32⟩
  | .hbm, ⟨60, _⟩ => ⟨S64x131072, .f32⟩
  | .hbm, ⟨61, _⟩ => ⟨S64x131072, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S64x131072, .f32⟩
  | .hbm, ⟨67, _⟩ => ⟨S64x131072, .f32⟩
  | .hbm, ⟨68, _⟩ => ⟨S64x131072, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S64x8x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call1_call0_cst : Ref sig .tc := ⟨.hbm, 17, rfl⟩
abbrev main_call1_call0_v0 : Ref sig .tc := ⟨.hbm, 18, rfl⟩
abbrev main_call1_call0_v1 : Ref sig .tc := ⟨.hbm, 19, rfl⟩
abbrev main_call1_call0_cst_0 : Ref sig .tc := ⟨.hbm, 20, rfl⟩
abbrev main_call1_call0_v2 : Ref sig .tc := ⟨.hbm, 21, rfl⟩
abbrev main_call1_call0_v3 : Ref sig .tc := ⟨.hbm, 22, rfl⟩
abbrev main_call1_call0_v4 : Ref sig .tc := ⟨.hbm, 23, rfl⟩
abbrev main_call1_call0_v5 : Ref sig .tc := ⟨.hbm, 24, rfl⟩
abbrev main_call1_call0_v6 : Ref sig .tc := ⟨.hbm, 25, rfl⟩
abbrev main_call1_call0_v7 : Ref sig .tc := ⟨.hbm, 26, rfl⟩
abbrev main_call1_call0_cst_1 : Ref sig .tc := ⟨.hbm, 27, rfl⟩
abbrev main_call1_call0_v8 : Ref sig .tc := ⟨.hbm, 28, rfl⟩
abbrev main_call1_call0_cst_2 : Ref sig .tc := ⟨.hbm, 29, rfl⟩
abbrev main_call1_call0_v9 : Ref sig .tc := ⟨.hbm, 30, rfl⟩
abbrev main_call1_call0_v10 : Ref sig .tc := ⟨.hbm, 31, rfl⟩
abbrev main_call1_call0_v11 : Ref sig .tc := ⟨.hbm, 32, rfl⟩
abbrev main_call1_call0_cst_3 : Ref sig .tc := ⟨.hbm, 33, rfl⟩
abbrev main_call1_call0_v12 : Ref sig .tc := ⟨.hbm, 34, rfl⟩
abbrev main_call1_call0_cst_4 : Ref sig .tc := ⟨.hbm, 35, rfl⟩
abbrev main_call1_call0_call0_v0 : Ref sig .tc := ⟨.hbm, 36, rfl⟩
abbrev main_call1_call0_call0_v1 : Ref sig .tc := ⟨.hbm, 37, rfl⟩
abbrev main_call1_v0 : Ref sig .tc := ⟨.hbm, 38, rfl⟩
abbrev main_v7 : Ref sig .tc := ⟨.hbm, 39, rfl⟩
abbrev main_cst_2 : Ref sig .tc := ⟨.hbm, 40, rfl⟩
abbrev main_v8 : Ref sig .tc := ⟨.hbm, 41, rfl⟩
abbrev main_cst_3 : Ref sig .tc := ⟨.hbm, 42, rfl⟩
abbrev main_v9 : Ref sig .tc := ⟨.hbm, 43, rfl⟩
abbrev main_v10 : Ref sig .tc := ⟨.hbm, 44, rfl⟩
abbrev main_c_4 : Ref sig .tc := ⟨.hbm, 45, rfl⟩
abbrev main_call2_call0_cst : Ref sig .tc := ⟨.hbm, 46, rfl⟩
abbrev main_call2_call0_v0 : Ref sig .tc := ⟨.hbm, 47, rfl⟩
abbrev main_call2_call0_v1 : Ref sig .tc := ⟨.hbm, 48, rfl⟩
abbrev main_call2_call0_cst_0 : Ref sig .tc := ⟨.hbm, 49, rfl⟩
abbrev main_call2_call0_v2 : Ref sig .tc := ⟨.hbm, 50, rfl⟩
abbrev main_call2_call0_v3 : Ref sig .tc := ⟨.hbm, 51, rfl⟩
abbrev main_call2_call0_v4 : Ref sig .tc := ⟨.hbm, 52, rfl⟩
abbrev main_call2_call0_v5 : Ref sig .tc := ⟨.hbm, 53, rfl⟩
abbrev main_call2_call0_v6 : Ref sig .tc := ⟨.hbm, 54, rfl⟩
abbrev main_call2_call0_v7 : Ref sig .tc := ⟨.hbm, 55, rfl⟩
abbrev main_call2_call0_cst_1 : Ref sig .tc := ⟨.hbm, 56, rfl⟩
abbrev main_call2_call0_v8 : Ref sig .tc := ⟨.hbm, 57, rfl⟩
abbrev main_call2_call0_cst_2 : Ref sig .tc := ⟨.hbm, 58, rfl⟩
abbrev main_call2_call0_v9 : Ref sig .tc := ⟨.hbm, 59, rfl⟩
abbrev main_call2_call0_v10 : Ref sig .tc := ⟨.hbm, 60, rfl⟩
abbrev main_call2_call0_v11 : Ref sig .tc := ⟨.hbm, 61, rfl⟩
abbrev main_call2_call0_cst_3 : Ref sig .tc := ⟨.hbm, 62, rfl⟩
abbrev main_call2_call0_v12 : Ref sig .tc := ⟨.hbm, 63, rfl⟩
abbrev main_call2_call0_cst_4 : Ref sig .tc := ⟨.hbm, 64, rfl⟩
abbrev main_call2_call0_call0_v0 : Ref sig .tc := ⟨.hbm, 65, rfl⟩
abbrev main_call2_call0_call0_v1 : Ref sig .tc := ⟨.hbm, 66, rfl⟩
abbrev main_call2_v0 : Ref sig .tc := ⟨.hbm, 67, rfl⟩
abbrev main_v11 : Ref sig .tc := ⟨.hbm, 68, rfl⟩
abbrev main_cst_5 : Ref sig .tc := ⟨.hbm, 69, rfl⟩
abbrev main_v12 : Ref sig .tc := ⟨.hbm, 70, rfl⟩
abbrev main_cst_6 : Ref sig .tc := ⟨.hbm, 71, rfl⟩
abbrev main_v13 : Ref sig .tc := ⟨.hbm, 72, rfl⟩
abbrev main_cst_7 : Ref sig .tc := ⟨.hbm, 73, rfl⟩
abbrev main_v14 : Ref sig .tc := ⟨.hbm, 74, rfl⟩
abbrev main_v15 : Ref sig .tc := ⟨.hbm, 75, rfl⟩

abbrev nD : Nat := 1
abbrev τ : Topo := Topo.v7x

variable {F : FTy → Type} [FloatOps F]

class Facts₀ : Prop where
  bcast_S_S64x8x1024 : S_.BroadcastsInDim S64x8x1024 (![] : Fin 0 → Fin S64x8x1024.rank)
  bcast_S64x8x1024_S64x8x1024x1_0_1_2 : S64x8x1024.BroadcastsInDim S64x8x1024x1 (![0, 1, 2] : Fin 3 → Fin S64x8x1024x1.rank)
  bcast_S64x8x1024x1_S64x8x1024x128_0_1_2_3 : S64x8x1024x1.BroadcastsInDim S64x8x1024x128 (![0, 1, 2, 3] : Fin 4 → Fin S64x8x1024x128.rank)
  bcast_S1x1x1x128_S64x8x1024x128_0_1_2_3 : S1x1x1x128.BroadcastsInDim S64x8x1024x128 (![0, 1, 2, 3] : Fin 4 → Fin S64x8x1024x128.rank)
  reducesTo_S64x8x1024x128_S64x1024x128_d1 : S64x8x1024x128.ReducesTo [1] S64x1024x128
  h_S_ : 0 < S_.numel
  bcast_S_S64x1024x128 : S_.BroadcastsInDim S64x1024x128 (![] : Fin 0 → Fin S64x1024x128.rank)
  shapeCasts_S64x1024x128_S64x131072 : S64x1024x128.ShapeCasts S64x131072
  reducesTo_S64x131072_S131072_d0 : S64x131072.ReducesTo [0] S131072
  bcast_S131072_S1x131072_1 : S131072.BroadcastsInDim S1x131072 (![1] : Fin 1 → Fin S1x131072.rank)
  bcast_S_S1x131072 : S_.BroadcastsInDim S1x131072 (![] : Fin 0 → Fin S1x131072.rank)
  bcast_S1x131072_S64x131072_0_1 : S1x131072.BroadcastsInDim S64x131072 (![0, 1] : Fin 2 → Fin S64x131072.rank)
  bcast_S_S131072 : S_.BroadcastsInDim S131072 (![] : Fin 0 → Fin S131072.rank)
  reducesTo_S131072_S_d0 : S131072.ReducesTo [0] S_
  shapeCasts_S64x8x1024x128_S64x8x131072 : S64x8x1024x128.ShapeCasts S64x8x131072
  reducesTo_S64x8x131072_S64x131072_d1 : S64x8x131072.ReducesTo [1] S64x131072
  bcast_S64x131072_S64x1x131072_0_2 : S64x131072.BroadcastsInDim S64x1x131072 (![0, 2] : Fin 2 → Fin S64x1x131072.rank)
  bcast_S_S64x1x131072 : S_.BroadcastsInDim S64x1x131072 (![] : Fin 0 → Fin S64x1x131072.rank)
  bcast_S64x1x131072_S64x8x131072_0_1_2 : S64x1x131072.BroadcastsInDim S64x8x131072 (![0, 1, 2] : Fin 3 → Fin S64x8x131072.rank)
  bcast_S_S64x131072 : S_.BroadcastsInDim S64x131072 (![] : Fin 0 → Fin S64x131072.rank)
  reducesTo_S64x131072_S64_d1 : S64x131072.ReducesTo [1] S64
  reducesTo_S64_S_d0 : S64.ReducesTo [0] S_

variable [Facts₀]

class Facts : Prop extends Facts₀ where

variable [Facts]
-- ==== Proof.BodyTerms.lean ====
/-
  The kernel body's arithmetic, named.  One grid step loads the eight shot rows `r 0 … r 7` of its tile of labels
  (each 64 classes × 1 × 128 positions) and computes from them, for every class, position and cluster, how many shots
  hit the cluster (`countOf`); from the counts it adds the tile's between-class share to one running total
  (`interStep`) and the tile's within-class share to another (`inStep`).
-/
import proofs.«113341_j75222057222180_2_alg».proof.Proof.Gen.KernelIdeal.Skeleton

noncomputable section

namespace Cert.KernelSide

open Idealize.ShloMosaic Cert.KernelIdeal Cert.KernelIdeal.Gen

variable {F : FTy → Type} [FloatOps F]

/-- The count after the first six shots, still in the narrow float format. -/
def partialCount (r : Fin 8 → Vec F S64x1x128 .i32) : FVec F S64x128x128 .bf16 :=
  k0_pay10 k0_pay7 (k0_pay8 (r 0) (r 1)) (k0_pay9 (r 2)) (r 3) (r 4) (r 5)

/-- The seventh shot's labels as a 64 × 128 array. -/
def seventh (r : Fin 8 → Vec F S64x1x128 .i32) : IVec S64x128 32 := k0_pay11 (r 6)

/-- The count over all eight shots, per class, position and cluster. -/
def countOf (r : Fin 8 → Vec F S64x1x128 .i32) : FVec F S64x128x128 .f32 :=
  k0_pay12 k0_pay7 (partialCount r) (seventh r) 1#32 (r 7)

/-- The between-class running total after a step: what it held plus the tile's share. -/
def interStep (r : Fin 8 → Vec F S64x1x128 .i32) (acc : Vec F S1x1 .f32) : FVec F S1x1 .f32 :=
  k0_pay13 k0_pay7 (partialCount r) (seventh r) 1#32 (r 7) acc

/-- The within-class running total after a step: what it held plus the tile's share. -/
def inStep (r : Fin 8 → Vec F S64x1x128 .i32) (acc : Vec F S1x1 .f32) : FVec F S1x1 .f32 :=
  k0_pay2 (countOf r) acc

end Cert.KernelSide

end
-- ==== Proof.Pieces.lean ====
/-
  What one grid step leaves behind, as values.  The two running totals live in two one-element scratch buffers.
  A step first resets both to zero when it is the first of its core's four steps, then replaces each by itself plus
  the tile's share (`interStep`, `inStep` of the tile's eight shot rows), and on the last of the four steps copies
  both totals into the core's entries of the two result arrays.
-/
import proofs.«113341_j75222057222180_2_alg».proof.Proof.Gen.KernelIdeal.Frame
import proofs.«113341_j75222057222180_2_alg».proof.Proof.BodyTerms
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelSide

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- Shot `s`'s row of a tile of labels: classes × one shot × positions. -/
def rows (x0 : Vec F S64x8x128 .i32) : Fin 8 → Vec F S64x1x128 .i32
  | ⟨0, _⟩ => View.ld x0 (Rect.unit (s := S64x8x128) ![0, 0, 0] S64x1x128.size inb_S64x8x128_S64x1x128_0_0_0)
  | ⟨1, _⟩ => View.ld x0 (Rect.unit (s := S64x8x128) ![0, 1, 0] S64x1x128.size inb_S64x8x128_S64x1x128_0_1_0)
  | ⟨2, _⟩ => View.ld x0 (Rect.unit (s := S64x8x128) ![0, 2, 0] S64x1x128.size inb_S64x8x128_S64x1x128_0_2_0)
  | ⟨3, _⟩ => View.ld x0 (Rect.unit (s := S64x8x128) ![0, 3, 0] S64x1x128.size inb_S64x8x128_S64x1x128_0_3_0)
  | ⟨4, _⟩ => View.ld x0 (Rect.unit (s := S64x8x128) ![0, 4, 0] S64x1x128.size inb_S64x8x128_S64x1x128_0_4_0)
  | ⟨5, _⟩ => View.ld x0 (Rect.unit (s := S64x8x128) ![0, 5, 0] S64x1x128.size inb_S64x8x128_S64x1x128_0_5_0)
  | ⟨6, _⟩ => View.ld x0 (Rect.unit (s := S64x8x128) ![0, 6, 0] S64x1x128.size inb_S64x8x128_S64x1x128_0_6_0)
  | ⟨7, _⟩ => View.ld x0 (Rect.unit (s := S64x8x128) ![0, 7, 0] S64x1x128.size inb_S64x8x128_S64x1x128_0_7_0)
  | ⟨n + 8, h⟩ => absurd h (Nat.not_lt.2 (Nat.le_add_left _ _))

/-- The zero the reset stores. -/
abbrev zeroAcc : Vec F S1x1 .f32 := broadcast S1x1 (Scalar.ofBits .f32 0x00000000#32)

/-! ## A first step of a core's four: both totals restart from zero -/

theorem sout_A_0 (c : Dev nD) (i : grid0.Coords) (arg2 : Memref sig .tc .vmem S64x8x128 .i32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S64x8x128 .i32) :
    sout0_A_0 c i arg2 harg2 arg3 harg3 arg4 harg4 arg5 harg5 arg6 harg6 hc0 hc1 x0 = interStep (rows x0) zeroAcc := by
  unfold sout0_A_0
  rw [View.read_writes_eq_canon _ _ _ (scover0_A_0 c i arg2 harg2 arg3 harg3 arg4 harg4 arg5 harg5 arg6 harg6 hc0 hc1 x0)]
  unfold kernelRun0_A
  dsimp only
  sl_unfold_words
  rw [View.canon_cons_unit_zero (S := S1x1) zero2, View.readCov_unit_zero (S := S1x1) _ zero2]
  simp only [View.readAt_eq_ld, harg2.read_unread]
  unfold k0_pay1 k0_pay5
  dsimp only
  rw [shapeCast_self, shapeCast_self]
  rfl

theorem sout_A_1 (c : Dev nD) (i : grid0.Coords) (arg2 : Memref sig .tc .vmem S64x8x128 .i32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S64x8x128 .i32) :
    sout0_A_1 c i arg2 harg2 arg3 harg3 arg4 harg4 arg5 harg5 arg6 harg6 hc0 hc1 x0 = inStep (rows x0) zeroAcc := by
  unfold sout0_A_1
  rw [View.read_writes_eq_canon _ _ _ (scover0_A_1 c i arg2 harg2 arg3 harg3 arg4 harg4 arg5 harg5 arg6 harg6 hc0 hc1 x0)]
  unfold kernelRun0_A
  dsimp only
  sl_unfold_words
  rw [View.canon_cons_unit_zero (S := S1x1) zero2, View.readCov_unit_zero (S := S1x1) _ zero2]
  simp only [View.readAt_eq_ld, harg2.read_unread]
  unfold k0_pay6
  dsimp only
  rw [shapeCast_self]
  rfl

/-! ## A middle step (neither first nor last of its four): both totals advance -/

theorem sout_B_0 (c : Dev nD) (i : grid0.Coords) (arg2 : Memref sig .tc .vmem S64x8x128 .i32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S64x8x128 .i32) (xs0 : Vec F S1x1 .f32) (xs1 : Vec F S1x1 .f32) :
    sout0_B_0 c i arg2 harg2 arg3 harg3 arg4 harg4 arg5 harg5 arg6 harg6 hc0 hc1 x0 xs0 xs1 = interStep (rows x0) xs0 := by
  unfold sout0_B_0
  rw [View.read_writes_eq_canon _ _ _ (scover0_B_0 c i arg2 harg2 arg3 harg3 arg4 harg4 arg5 harg5 arg6 harg6 hc0 hc1 x0 xs0 xs1)]
  unfold kernelRun0_B
  dsimp only
  sl_unfold_words
  rw [View.canon_unit_zero zero2]
  simp only [View.readAt_eq_ld, harg2.read_unread, harg5.read_unread, View.ld_unit_zero (S := S1x1) zero2]
  unfold k0_pay1
  rw [shapeCast_self]
  rfl

theorem sout_B_1 (c : Dev nD) (i : grid0.Coords) (arg2 : Memref sig .tc .vmem S64x8x128 .i32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S64x8x128 .i32) (xs0 : Vec F S1x1 .f32) (xs1 : Vec F S1x1 .f32) :
    sout0_B_1 c i arg2 harg2 arg3 harg3 arg4 harg4 arg5 harg5 arg6 harg6 hc0 hc1 x0 xs0 xs1 = inStep (rows x0) xs1 := by
  unfold sout0_B_1
  rw [View.read_writes_eq_canon _ _ _ (scover0_B_1 c i arg2 harg2 arg3 harg3 arg4 harg4 arg5 harg5 arg6 harg6 hc0 hc1 x0 xs0 xs1)]
  unfold kernelRun0_B
  dsimp only
  sl_unfold_words
  rw [View.canon_unit_zero zero2]
  simp only [View.readAt_eq_ld, harg2.read_unread, harg6.read_unread, View.ld_unit_zero (S := S1x1) zero2]
  rfl

/-! ## A last step of a core's four: both totals advance and are copied out -/

theorem sout_C_0 (c : Dev nD) (i : grid0.Coords) (arg2 : Memref sig .tc .vmem S64x8x128 .i32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S64x8x128 .i32) (xs0 : Vec F S1x1 .f32) (xs1 : Vec F S1x1 .f32) :
    sout0_C_0 c i arg2 harg2 arg3 harg3 arg4 harg4 arg5 harg5 arg6 harg6 hc0 hc1 x0 xs0 xs1 = interStep (rows x0) xs0 := by
  unfold sout0_C_0
  rw [View.read_writes_eq_canon _ _ _ (scover0_C_0 c i arg2 harg2 arg3 harg3 arg4 harg4 arg5 harg5 arg6 harg6 hc0 hc1 x0 xs0 xs1)]
  unfold kernelRun0_C
  dsimp only
  sl_unfold_words
  rw [View.canon_unit_zero zero2]
  simp only [View.readAt_eq_ld, harg2.read_unread, harg5.read_unread, View.ld_unit_zero (S := S1x1) zero2]
  unfold k0_pay1
  rw [shapeCast_self]
  rfl

theorem sout_C_1 (c : Dev nD) (i : grid0.Coords) (arg2 : Memref sig .tc .vmem S64x8x128 .i32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S64x8x128 .i32) (xs0 : Vec F S1x1 .f32) (xs1 : Vec F S1x1 .f32) :
    sout0_C_1 c i arg2 harg2 arg3 harg3 arg4 harg4 arg5 harg5 arg6 harg6 hc0 hc1 x0 xs0 xs1 = inStep (rows x0) xs1 := by
  unfold sout0_C_1
  rw [View.read_writes_eq_canon _ _ _ (scover0_C_1 c i arg2 harg2 arg3 harg3 arg4 harg4 arg5 harg5 arg6 harg6 hc0 hc1 x0 xs0 xs1)]
  unfold kernelRun0_C
  dsimp only
  sl_unfold_words
  rw [View.canon_unit_zero zero2]
  simp only [View.readAt_eq_ld, harg2.read_unread, harg6.read_unread, View.ld_unit_zero (S := S1x1) zero2]
  rfl

theorem out_C_1 (c : Dev nD) (i : grid0.Coords) (arg2 : Memref sig .tc .vmem S64x8x128 .i32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S64x8x128 .i32) (xs0 : Vec F S1x1 .f32) (xs1 : Vec F S1x1 .f32) :
    out0_C_1 c i arg2 harg2 arg3 harg3 arg4 harg4 arg5 harg5 arg6 harg6 hc0 hc1 x0 xs0 xs1 = k0_pay3 (interStep (rows x0) xs0) := by
  unfold out0_C_1
  rw [View.read_writes_eq_canon _ _ _ (cover0_C_1 c i arg2 harg2 arg3 harg3 arg4 harg4 arg5 harg5 arg6 harg6 hc0 hc1 x0 xs0 xs1)]
  unfold kernelRun0_C
  dsimp only
  sl_unfold_words
  rw [View.canon_unit_zero zero3, View.readCov_unit_zero (S := S1x1) _ zero2]
  simp only [View.readAt_eq_ld, harg2.read_unread, harg5.read_unread, View.ld_unit_zero (S := S1x1) zero2]
  unfold k0_pay1
  rw [shapeCast_self]
  rfl

theorem out_C_2 (c : Dev nD) (i : grid0.Coords) (arg2 : Memref sig .tc .vmem S64x8x128 .i32) (harg2 : arg2.IsWhole) (arg3 : Memref sig .tc .vmem S1x1x1 .f32) (harg3 : arg3.IsWhole) (arg4 : Memref sig .tc .vmem S1x1x1 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S64x8x128 .i32) (xs0 : Vec F S1x1 .f32) (xs1 : Vec F S1x1 .f32) :
    out0_C_2 c i arg2 harg2 arg3 harg3 arg4 harg4 arg5 harg5 arg6 harg6 hc0 hc1 x0 xs0 xs1 = k0_pay4 (inStep (rows x0) xs1) := by
  unfold out0_C_2
  rw [View.read_writes_eq_canon _ _ _ (cover0_C_2 c i arg2 harg2 arg3 harg3 arg4 harg4 arg5 harg5 arg6 harg6 hc0 hc1 x0 xs0 xs1)]
  unfold kernelRun0_C
  dsimp only
  sl_unfold_words
  rw [View.canon_unit_zero zero3, View.readCov_unit_zero (S := S1x1) _ zero2]
  simp only [View.readAt_eq_ld, harg2.read_unread, harg6.read_unread, View.ld_unit_zero (S := S1x1) zero2]
  rfl

end Cert.KernelSide

end
-- ==== Proof.Totals.lean ====
/-
  The two running totals, step by step.  The grid has eight steps: steps 0–3 are the first core's four tiles of
  positions, steps 4–7 the second core's.  After step `n` the first scratch buffer holds the between-class shares of the
  tiles of `n`'s core visited so far, added in order from zero, and the second the within-class shares likewise; the
  last step of each core (3 and 7) also copies both totals into the core's entries of the two result arrays.
-/
import proofs.«113341_j75222057222180_2_alg».proof.Proof.Pieces

set_option maxRecDepth 16384

noncomputable section

open Idealize.ShloMosaic Idealize.ShloMosaic.TcCoe Idealize.SL.Sem
open Idealize.ShloMosaic.Pipeline (Dat)

namespace Cert.KernelSide

open Cert.KernelIdeal Cert.KernelIdeal.Gen

variable {F : FTy → Type} [FloatOps F]
variable (m : (ℓ : Loc nD τ sig) → Buf (Elt F) ℓ)

/-- The pair of running totals after step `n`: restarted from zero at the first step of each core. -/
def totals (c : Dev nD) : (n : ℕ) → n < cfg0.N → Vec F S1x1 .f32 × Vec F S1x1 .f32
  | 0, h => (interStep (rows (iblk m c 0 ⟨0, h⟩)) zeroAcc, inStep (rows (iblk m c 0 ⟨0, h⟩)) zeroAcc)
  | n + 1, h =>
    if (n + 1) % 4 = 0 then
      (interStep (rows (iblk m c 0 ⟨n + 1, h⟩)) zeroAcc, inStep (rows (iblk m c 0 ⟨n + 1, h⟩)) zeroAcc)
    else
      (interStep (rows (iblk m c 0 ⟨n + 1, h⟩)) (totals c n (Nat.lt_of_succ_lt h)).1,
        inStep (rows (iblk m c 0 ⟨n + 1, h⟩)) (totals c n (Nat.lt_of_succ_lt h)).2)

theorem totals_restart (c : Dev nD) (n : ℕ) (h : n + 1 < cfg0.N) (h0 : (n + 1) % 4 = 0) :
    totals m c (n + 1) h
      = (interStep (rows (iblk m c 0 ⟨n + 1, h⟩)) zeroAcc, inStep (rows (iblk m c 0 ⟨n + 1, h⟩)) zeroAcc) := by
  rw [totals, if_pos h0]

theorem totals_advance (c : Dev nD) (n : ℕ) (h : n + 1 < cfg0.N) (h0 : ¬(n + 1) % 4 = 0) :
    totals m c (n + 1) h
      = (interStep (rows (iblk m c 0 ⟨n + 1, h⟩)) (totals m c n (Nat.lt_of_succ_lt h)).1,
          inStep (rows (iblk m c 0 ⟨n + 1, h⟩)) (totals m c n (Nat.lt_of_succ_lt h)).2) := by
  rw [totals, if_neg h0]

/-- What the two scratch buffers hold after step `n` is the pair of running totals: by induction on the step. -/
theorem scratch_eq (c : Dev nD) : ∀ (n : ℕ) (h : n < cfg0.N), (outsAt0 m c n h).2.2 = totals m c n h
  | 0, h => by
    rw [outsAt0_A m c ⟨0, h⟩ rfl (by show ¬(0 % 4 = 3); decide)]
    dsimp only
    rw [sout_A_0, sout_A_1]
    rfl
  | n + 1, h => by
    have hN : cfg0.N = 8 := N_0
    by_cases h0 : (n + 1) % 4 = 0
    · have h1 : ¬(n + 1) % 4 = 3 := by omega
      rw [outsAt0_A m c ⟨n + 1, h⟩ h0 h1]
      dsimp only
      rw [sout_A_0, sout_A_1, totals_restart m c n h h0]
    · by_cases h1 : (n + 1) % 4 = 3
      · rw [outsAt0_C m c ⟨n + 1, h⟩ h0 h1]
        dsimp only
        rw [sout_C_0, sout_C_1, totals_advance m c n h h0]
        show (interStep _ (outsAt0 m c n _).2.2.1, inStep _ (outsAt0 m c n _).2.2.2) = _
        rw [scratch_eq c n]
      · rw [outsAt0_B m c ⟨n + 1, h⟩ h0 h1]
        dsimp only
        rw [sout_B_0, sout_B_1, totals_advance m c n h h0]
        show (interStep _ (outsAt0 m c n _).2.2.1, inStep _ (outsAt0 m c n _).2.2.2) = _
        rw [scratch_eq c n]

/-- At the last step of a core the two totals are copied into the result arrays' staging buffers. -/
theorem out_eq (c : Dev nD) (t : Fin cfg0.N) (h3 : t.val % 4 = 3) :
    (outsAt0 m c t.val t.isLt).1 = k0_pay3 (totals m c t.val t.isLt).1
      ∧ (outsAt0 m c t.val t.isLt).2.1 = k0_pay4 (totals m c t.val t.isLt).2 := by
  obtain ⟨n, h⟩ := t
  cases n with
  | zero => exact absurd h3 (by show ¬(0 % 4 = 3); decide)
  | succ n =>
    have h0 : ¬(n + 1) % 4 = 0 := by dsimp only at h3; omega
    rw [outsAt0_C m c ⟨n + 1, h⟩ h0 h3]
    dsimp only
    rw [out_C_1, out_C_2, totals_advance m c n h h0]
    dsimp only
    constructor
    · show k0_pay3 (interStep _ (outsAt0 m c n _).2.2.1) = _
      rw [scratch_eq m c n]
    · show k0_pay4 (inStep _ (outsAt0 m c n _).2.2.2) = _
      rw [scratch_eq m c n]

end Cert.KernelSide

end
-- ==== Proof.Arrays.lean ====
/-
  The two result arrays of the kernel's grid, each of two entries (one per core): after the run, entry `κ` of the first
  holds core `κ`'s between-class total and entry `κ` of the second its within-class total — the running totals
  after the core's last step, which is the only step that writes them back.
-/
import proofs.«113341_j75222057222180_2_alg».proof.Proof.Totals
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelSide

open Cert.KernelIdeal Cert.KernelIdeal.Gen

variable {F : FTy → Type} [FloatOps F]
variable (m : (ℓ : Loc nD τ sig) → Buf (Elt F) ℓ)

/-- A one-by-one array has one index. -/
theorem idx11_eq (a : S1x1.Idx) : a = ix2 0 0 := by
  funext d
  apply Fin.ext
  match d with
  | ⟨0, _⟩ => have h : (a 0).val < 1 := (a 0).isLt; show (a 0).val = 0; omega
  | ⟨1, _⟩ => have h : (a 1).val < 1 := (a 1).isLt; show (a 1).val = 0; omega

/-- The running totals depend on the step's number only. -/
theorem totals_congr (c : Dev nD) {n n' : ℕ} (e : n = n') (h : n < cfg0.N) (h' : n' < cfg0.N) :
    totals m c n h = totals m c n' h' := by
  subst e; rfl

/-! ## The array of per-core between-class totals (output window 1) -/

/-- Entry `κ` is core `κ`'s between-class total after its last step `4κ + 3`. -/
def interArr (c : Dev nD) : S2x1x1.Idx → Elt F .f32 := fun j =>
  (totals m c (4 * (j 0).val + 3) (by have h : (j 0).val < 2 := (j 0).isLt; rw [show cfg0.N = 8 from N_0]; omega)).1 (ix2 0 0)

/-- The printed index map of window 1, decided over the grid: step `t` addresses entry `t / 4`. -/
theorem idx_facts1 : ∀ t : Fin cfg0.N, win0_1.index t (0 : Fin 3) = t.val / 4 ∧ win0_1.index t (1 : Fin 3) = 0 ∧ win0_1.index t (2 : Fin 3) = 0 :=
  (by decide +kernel : ∀ t : Fin grid0.N, _)

/-- What a last step writes back is its entry of the array of totals. -/
theorem flushed1_eq (c : Dev nD) (t : Fin cfg0.N) (hf : (cfg0.win 1).flush t = true) :
    (dats m 0 c).flushed 1 t = ((cfg0.win 1).blk t).view.read (Elt F) (interArr m c) := by
  have h3 : t.val % 4 = 3 := (flush0_1 t).mp hf
  have hN : cfg0.N = 8 := N_0
  have ht : t.val < 8 := lt_of_lt_of_eq t.isLt hN
  show (cfg0.win 1).cut (grid0.coords t) ((dats m 0 c).after 1 t) = _
  rw [after0_1, (out_eq m c t h3).1]
  obtain ⟨e0, e1, e2⟩ := idx_facts1 t
  funext y
  have hy : (y 0).val < 1 := (y 0).isLt
  have hidx : 4 * ((((cfg0.win 1).blk t).view.emb y) 0).val + 3 = t.val := by
    show 4 * (win0_1.index t (0 : Fin 3) * 1 + 1 * (y 0).val) + 3 = t.val
    omega
  show k0_pay3 (totals m c t.val t.isLt).1 y = (totals m c (4 * ((((cfg0.win 1).blk t).view.emb y) 0).val + 3) _).1 (ix2 0 0)
  refine (congrArg (totals m c t.val t.isLt).1 (idx11_eq _)).trans ?_
  exact congrArg (fun p : Vec F S1x1 .f32 × Vec F S1x1 .f32 => p.1 (ix2 0 0)) (totals_congr m c hidx.symm _ _)

/-- The two last steps' entries are the whole array. -/
theorem cover1 (i : S2x1x1.Idx) : ∃ t : Fin cfg0.N, (cfg0.win 1).flush t = true ∧ i ∈ ((cfg0.win 1).blk t).view.set := by
  have hN : cfg0.N = 8 := N_0
  have h0 : (i 0).val < 2 := (i 0).isLt
  have h1 : (i 1).val < 1 := (i 1).isLt
  have h2 : (i 2).val < 1 := (i 2).isLt
  have hlt : 4 * (i 0).val + 3 < cfg0.N := by rw [hN]; omega
  refine ⟨⟨4 * (i 0).val + 3, hlt⟩, (flush0_1 _).mpr (by dsimp only; omega), ?_⟩
  obtain ⟨e0, e1, e2⟩ := idx_facts1 ⟨4 * (i 0).val + 3, hlt⟩
  dsimp only at e0
  show i ∈ ((View.whole main_v0_0).slice (win0_1.rect ⟨4 * (i 0).val + 3, hlt⟩)).set
  rw [View.set_slice_whole, Rect.mem_set_unit]
  intro a
  match a with
  | ⟨0, _⟩ =>
    show win0_1.index _ (0 : Fin 3) * 1 ≤ (i 0).val ∧ (i 0).val < win0_1.index _ (0 : Fin 3) * 1 + 1
    rw [e0]; omega
  | ⟨1, _⟩ =>
    show win0_1.index _ (1 : Fin 3) * 1 ≤ (i 1).val ∧ (i 1).val < win0_1.index _ (1 : Fin 3) * 1 + 1
    rw [e1]; omega
  | ⟨2, _⟩ =>
    show win0_1.index _ (2 : Fin 3) * 1 ≤ (i 2).val ∧ (i 2).val < win0_1.index _ (2 : Fin 3) * 1 + 1
    rw [e2]; omega

/-- So the result array ends holding the per-core totals. -/
theorem final1 (c : Dev nD) : (dats m 0 c).arrAt 1 cfg0.N = interArr m c :=
  (dats m 0 c).arrAt_eq_of_cover 1 (interArr m c) (flushed1_eq m c) (cover1)

/-! ## The array of per-core within-class totals (output window 2) -/

/-- Entry `κ` is core `κ`'s within-class total after its last step `4κ + 3`. -/
def withinArr (c : Dev nD) : S2x1x1.Idx → Elt F .f32 := fun j =>
  (totals m c (4 * (j 0).val + 3) (by have h : (j 0).val < 2 := (j 0).isLt; rw [show cfg0.N = 8 from N_0]; omega)).2 (ix2 0 0)

/-- The printed index map of window 2, decided over the grid: step `t` addresses entry `t / 4`. -/
theorem idx_facts2 : ∀ t : Fin cfg0.N, win0_2.index t (0 : Fin 3) = t.val / 4 ∧ win0_2.index t (1 : Fin 3) = 0 ∧ win0_2.index t (2 : Fin 3) = 0 :=
  (by decide +kernel : ∀ t : Fin grid0.N, _)

/-- What a last step writes back is its entry of the array of totals. -/
theorem flushed2_eq (c : Dev nD) (t : Fin cfg0.N) (hf : (cfg0.win 2).flush t = true) :
    (dats m 0 c).flushed 2 t = ((cfg0.win 2).blk t).view.read (Elt F) (withinArr m c) := by
  have h3 : t.val % 4 = 3 := (flush0_2 t).mp hf
  have hN : cfg0.N = 8 := N_0
  have ht : t.val < 8 := lt_of_lt_of_eq t.isLt hN
  show (cfg0.win 2).cut (grid0.coords t) ((dats m 0 c).after 2 t) = _
  rw [after0_2, (out_eq m c t h3).2]
  obtain ⟨e0, e1, e2⟩ := idx_facts2 t
  funext y
  have hy : (y 0).val < 1 := (y 0).isLt
  have hidx : 4 * ((((cfg0.win 2).blk t).view.emb y) 0).val + 3 = t.val := by
    show 4 * (win0_2.index t (0 : Fin 3) * 1 + 1 * (y 0).val) + 3 = t.val
    omega
  show k0_pay4 (totals m c t.val t.isLt).2 y = (totals m c (4 * ((((cfg0.win 2).blk t).view.emb y) 0).val + 3) _).2 (ix2 0 0)
  refine (congrArg (totals m c t.val t.isLt).2 (idx11_eq _)).trans ?_
  exact congrArg (fun p : Vec F S1x1 .f32 × Vec F S1x1 .f32 => p.2 (ix2 0 0)) (totals_congr m c hidx.symm _ _)

/-- The two last steps' entries are the whole array. -/
theorem cover2 (i : S2x1x1.Idx) : ∃ t : Fin cfg0.N, (cfg0.win 2).flush t = true ∧ i ∈ ((cfg0.win 2).blk t).view.set := by
  have hN : cfg0.N = 8 := N_0
  have h0 : (i 0).val < 2 := (i 0).isLt
  have h1 : (i 1).val < 1 := (i 1).isLt
  have h2 : (i 2).val < 1 := (i 2).isLt
  have hlt : 4 * (i 0).val + 3 < cfg0.N := by rw [hN]; omega
  refine ⟨⟨4 * (i 0).val + 3, hlt⟩, (flush0_2 _).mpr (by dsimp only; omega), ?_⟩
  obtain ⟨e0, e1, e2⟩ := idx_facts2 ⟨4 * (i 0).val + 3, hlt⟩
  dsimp only at e0
  show i ∈ ((View.whole main_v0_1).slice (win0_2.rect ⟨4 * (i 0).val + 3, hlt⟩)).set
  rw [View.set_slice_whole, Rect.mem_set_unit]
  intro a
  match a with
  | ⟨0, _⟩ =>
    show win0_2.index _ (0 : Fin 3) * 1 ≤ (i 0).val ∧ (i 0).val < win0_2.index _ (0 : Fin 3) * 1 + 1
    rw [e0]; omega
  | ⟨1, _⟩ =>
    show win0_2.index _ (1 : Fin 3) * 1 ≤ (i 1).val ∧ (i 1).val < win0_2.index _ (1 : Fin 3) * 1 + 1
    rw [e1]; omega
  | ⟨2, _⟩ =>
    show win0_2.index _ (2 : Fin 3) * 1 ≤ (i 2).val ∧ (i 2).val < win0_2.index _ (2 : Fin 3) * 1 + 1
    rw [e2]; omega

/-- So the result array ends holding the per-core totals. -/
theorem final2 (c : Dev nD) : (dats m 0 c).arrAt 2 cfg0.N = withinArr m c :=
  (dats m 0 c).arrAt_eq_of_cover 2 (withinArr m c) (flushed2_eq m c) (cover2)

end Cert.KernelSide

end
-- ==== Proof.Tail.lean ====
/-
  After the grid, the host adds the two cores' entries of each result array, takes the reciprocal of the first sum and
  one sixty-fourth of the second, and adds the two.
-/
import proofs.«113341_j75222057222180_2_alg».proof.Proof.Arrays
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelSide

open Cert.KernelIdeal Cert.KernelIdeal.Gen

variable {F : FTy → Type} [FloatOps F]
variable (m : (ℓ : Loc nD τ sig) → Buf (Elt F) ℓ) (ρ : Dev nD → PrngReg)

/-- The host's combination of the two arrays of per-core totals. -/
def combine (a b : S2x1x1.Idx → Elt F .f32) : S_.Idx → Elt F .f32 :=
  addf
    (Host.divf (constant S_ .f32 0x3F800000#32)
      (Host.reduceAdd (shapeCast S2 a shapeCasts_S2x1x1_S2) (constant S_ .f32 0x00000000#32) reducesTo_S2_S_d0 h_S_))
    (Host.divf
      (Host.reduceAdd (shapeCast S2 b shapeCasts_S2x1x1_S2) (constant S_ .f32 0x00000000#32) reducesTo_S2_S_d0 h_S_)
      (constant S_ .f32 0x42800000#32))

/-- The program's result after the host's lines: the combination of the two arrays of per-core totals. -/
theorem tail_eq (c : Dev nD) :
    Pipeline.afterTail₀ cfgs (dats m) 0 (V0 m) [hostOps1] c main_v7 = combine (interArr m c) (withinArr m c) := by
  unfold Pipeline.afterTail₀
  show StableHlo.after hostOps1 _ (Proc.devRef .tc main_v7) = _
  after_results
  have h1 : Pipeline.withArrays (cfgs 0).spec c (V0 m c) (fun w => (dats m 0 c).arrAt w (cfgs 0).N) (Proc.tc.devRef main_v0_0)
      = interArr m c := (Pipeline.withArrays_arr spec0 launch0.win.arr_inj c _ _ 1).trans (final1 m c)
  have h2 : Pipeline.withArrays (cfgs 0).spec c (V0 m c) (fun w => (dats m 0 c).arrAt w (cfgs 0).N) (Proc.tc.devRef main_v0_1)
      = withinArr m c := (Pipeline.withArrays_arr spec0 launch0.win.arr_inj c _ _ 2).trans (final2 m c)
  rw [h1, h2]
  rfl

/-- The result buffer is none of the grid's arrays and lives past the region. -/
theorem result_mem_rest : main_v7 ∈ Pipeline.restRefs sig (cfgs 0).spec :=
  Pipeline.mem_restRefs_of main_v7 rfl (by decide)

/-- The kernel's run, read: the result at the combination of the per-core totals, the labels unchanged. -/
theorem run : θ_run defs (onTc (τ := τ) (main (F := F))) ⟨m, fun _ => 0, ρ⟩ fun r => ∀ c : Dev nD,
      r.2.mem ((c.tc : Thread nD τ).loc main_v7) = combine (interArr m c) (withinArr m c)
      ∧ r.2.mem ((c.tc : Thread nD τ).loc main_arg0) = m ((c.tc : Thread nD τ).loc main_arg0) :=
  (θ_run defs _ _).mono (fun _ h c => ⟨((h c).2 main_v7 result_mem_rest).trans (tail_eq m c),
      ((h c).1 0).trans (((dats m 0 c).arrAt_in 0 rfl _).trans ((A_eq m c 0).trans (V_main_arg0 m c)))⟩)
    (run_main m ρ)

end Cert.KernelSide

end
-- ==== Proof.Tiles.lean ====
/-
  Which labels a grid step sees.  Step `t` (of eight) reads the tile of positions `128 t … 128 t + 127` of the label
  array, all classes and all shots; shot `s`'s row of the tile at class `c` and position `w` is the label
  `t[c, s, 128 t + w]`.
-/
import proofs.«113341_j75222057222180_2_alg».proof.Proof.Pieces
import Idealize.ShloMosaic.Lib.ValueIdx

set_option maxRecDepth 16384

noncomputable section

open Idealize.ShloMosaic Idealize.ShloMosaic.TcCoe Idealize.SL.Sem Idealize.ShloMosaic.ValueIdx

namespace Cert.KernelSide

open Cert.KernelIdeal Cert.KernelIdeal.Gen

variable {F : FTy → Type} [FloatOps F]
variable (m : (ℓ : Loc nD τ sig) → Buf (Elt F) ℓ)

/-- Shot `s`'s row of a tile at class `c'` and position `w'` is the tile's entry at `(c', s, w')`. -/
theorem rows_apply (x : Vec F S64x8x128 .i32) (s : Fin 8) (c' : Fin 64) (w' : Fin 128) :
    rows x s (ix3 c' 0 w') = x (ix3 c' s w') := by
  match s with
  | ⟨0, _⟩ =>
    refine congrArg x (funext fun a => Fin.ext ?_)
    match a with
    | ⟨0, _⟩ => show 0 + 1 * c'.val = c'.val; omega
    | ⟨1, _⟩ => show 0 + 1 * 0 = 0; omega
    | ⟨2, _⟩ => show 0 + 1 * w'.val = w'.val; omega
  | ⟨1, _⟩ =>
    refine congrArg x (funext fun a => Fin.ext ?_)
    match a with
    | ⟨0, _⟩ => show 0 + 1 * c'.val = c'.val; omega
    | ⟨1, _⟩ => show 1 + 1 * 0 = 1; omega
    | ⟨2, _⟩ => show 0 + 1 * w'.val = w'.val; omega
  | ⟨2, _⟩ =>
    refine congrArg x (funext fun a => Fin.ext ?_)
    match a with
    | ⟨0, _⟩ => show 0 + 1 * c'.val = c'.val; omega
    | ⟨1, _⟩ => show 2 + 1 * 0 = 2; omega
    | ⟨2, _⟩ => show 0 + 1 * w'.val = w'.val; omega
  | ⟨3, _⟩ =>
    refine congrArg x (funext fun a => Fin.ext ?_)
    match a with
    | ⟨0, _⟩ => show 0 + 1 * c'.val = c'.val; omega
    | ⟨1, _⟩ => show 3 + 1 * 0 = 3; omega
    | ⟨2, _⟩ => show 0 + 1 * w'.val = w'.val; omega
  | ⟨4, _⟩ =>
    refine congrArg x (funext fun a => Fin.ext ?_)
    match a with
    | ⟨0, _⟩ => show 0 + 1 * c'.val = c'.val; omega
    | ⟨1, _⟩ => show 4 + 1 * 0 = 4; omega
    | ⟨2, _⟩ => show 0 + 1 * w'.val = w'.val; omega
  | ⟨5, _⟩ =>
    refine congrArg x (funext fun a => Fin.ext ?_)
    match a with
    | ⟨0, _⟩ => show 0 + 1 * c'.val = c'.val; omega
    | ⟨1, _⟩ => show 5 + 1 * 0 = 5; omega
    | ⟨2, _⟩ => show 0 + 1 * w'.val = w'.val; omega
  | ⟨6, _⟩ =>
    refine congrArg x (funext fun a => Fin.ext ?_)
    match a with
    | ⟨0, _⟩ => show 0 + 1 * c'.val = c'.val; omega
    | ⟨1, _⟩ => show 6 + 1 * 0 = 6; omega
    | ⟨2, _⟩ => show 0 + 1 * w'.val = w'.val; omega
  | ⟨7, _⟩ =>
    refine congrArg x (funext fun a => Fin.ext ?_)
    match a with
    | ⟨0, _⟩ => show 0 + 1 * c'.val = c'.val; omega
    | ⟨1, _⟩ => show 7 + 1 * 0 = 7; omega
    | ⟨2, _⟩ => show 0 + 1 * w'.val = w'.val; omega
  | ⟨n + 8, h⟩ => exact absurd h (Nat.not_lt.2 (Nat.le_add_left _ _))

/-- The printed index map of the input window, decided over the grid: step `t` reads tile `t` of positions. -/
theorem idx_facts0 : ∀ t : Fin cfg0.N, win0_0.index t (0 : Fin 3) = 0 ∧ win0_0.index t (1 : Fin 3) = 0 ∧ win0_0.index t (2 : Fin 3) = t.val :=
  (by decide +kernel : ∀ t : Fin grid0.N, _)

/-- The position of the label array that position `w'` of step `t`'s tile is. -/
def posOf (t : Fin cfg0.N) (w' : Fin 128) : Fin 1024 :=
  ⟨128 * t.val + w'.val, by have hN : cfg0.N = 8 := N_0; have := t.isLt; have := w'.isLt; omega⟩

/-- Step `t`'s tile at `(c', s, w')` is the label at `(c', s, 128 t + w')`. -/
theorem tile_apply (c : Dev nD) (t : Fin cfg0.N) (s : Fin 8) (c' : Fin 64) (w' : Fin 128) :
    rows (iblk m c 0 t) s (ix3 c' 0 w') = m ((c.tc : Thread nD τ).loc main_arg0) (ix3 c' s (posOf t w')) := by
  rw [rows_apply]
  obtain ⟨e0, e1, e2⟩ := idx_facts0 t
  unfold iblk
  rw [View.read_apply]
  show V m c main_arg0 _ = m (c.tc.loc main_arg0) _
  unfold V
  congr 1
  funext a
  apply Fin.ext
  match a with
  | ⟨0, _⟩ => show win0_0.index t (0 : Fin 3) * 64 + 1 * c'.val = c'.val; omega
  | ⟨1, _⟩ => show win0_0.index t (1 : Fin 3) * 8 + 1 * s.val = s.val; omega
  | ⟨2, _⟩ => show win0_0.index t (2 : Fin 3) * 128 + 1 * w'.val = 128 * t.val + w'.val; omega

end Cert.KernelSide

end
-- ==== Proof.BodyLayout.lean ====
/-
  The body's layout operations read at an index given by its coordinates, at the body's literal shapes: a label row
  viewed as a 64 × 128 array, a trailing unit axis added and broadcast over the 128 clusters, the cluster row
  broadcast over classes and positions, a per-position row broadcast back over the classes, and each one-axis sum
  as the sum over that axis's coordinate.
-/
import proofs.«113341_j75222057222180_2_alg».proof.Proof.BodyTerms
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BodySide

open Idealize.ShloMosaic Idealize.ShloMosaic.ValueIdx Cert.KernelIdeal

section Casts
variable {α : Type}

/-- A 64 × 1 × 128 array viewed as 64 × 128 reads, at `(c, w)`, the operand at `(c, 0, w)`. -/
theorem cast_row (x : S64x1x128.Idx → α) (h : S64x1x128.ShapeCasts S64x128) (c : Fin 64) (w : Fin 128) :
    shapeCast S64x128 x h (ix2 c w) = x (ix3 c (0 : Fin 1) w) :=
  shapeCast_apply x h _ _ (by
    rw [Shape.rowMajor_val_three, Shape.rowMajor_val_two]
    show (c.val * 1 + 0) * 128 + w.val = c.val * 128 + w.val
    omega)

/-- A 64 × 128 array viewed as 64 × 128 × 1 reads, at `(c, w, u)`, the operand at `(c, w)`. -/
theorem cast_col (x : S64x128.Idx → α) (h : S64x128.ShapeCasts S64x128x1) (c : Fin 64) (w : Fin 128) (u : Fin 1) :
    shapeCast S64x128x1 x h (ix3 c w u) = x (ix2 c w) :=
  shapeCast_apply x h _ _ (by
    have hu : u.val = 0 := by omega
    rw [Shape.rowMajor_val_three, Shape.rowMajor_val_two]
    show c.val * 128 + w.val = (c.val * 128 + w.val) * 1 + u.val
    omega)

/-- A 64 × 128 × 1 array broadcast over 128 clusters reads, at `(c, w, k)`, the operand at `(c, w, 0)`. -/
theorem bcast_col (x : S64x128x1.Idx → α) (h : S64x128x1.Broadcasts S64x128x128) (c : Fin 64) (w k : Fin 128) :
    broadcastTo S64x128x128 x h (ix3 c w k) = x (ix3 c w (0 : Fin 1)) :=
  broadcastTo_apply x h _ _ fun a => match a with | ⟨0, _⟩ => rfl | ⟨1, _⟩ => rfl | ⟨2, _⟩ => rfl

/-- A 1 × 1 × 128 row broadcast over classes and positions reads, at `(c, w, k)`, the operand at `(0, 0, k)`. -/
theorem bcast_lane (x : S1x1x128.Idx → α) (h : S1x1x128.Broadcasts S64x128x128) (c : Fin 64) (w k : Fin 128) :
    broadcastTo S64x128x128 x h (ix3 c w k) = x (ix3 (0 : Fin 1) (0 : Fin 1) k) :=
  broadcastTo_apply x h _ _ fun a => match a with | ⟨0, _⟩ => rfl | ⟨1, _⟩ => rfl | ⟨2, _⟩ => rfl

/-- A 1 × 128 × 128 array broadcast over the 64 classes reads, at `(c, w, k)`, the operand at `(0, w, k)`. -/
theorem bcast_class (x : S1x128x128.Idx → α) (h : S1x128x128.Broadcasts S64x128x128) (c : Fin 64) (w k : Fin 128) :
    broadcastTo S64x128x128 x h (ix3 c w k) = x (ix3 (0 : Fin 1) w k) :=
  broadcastTo_apply x h _ _ fun a => match a with | ⟨0, _⟩ => rfl | ⟨1, _⟩ => rfl | ⟨2, _⟩ => rfl

/-- A length-`n` vector viewed as `n × 1` reads, at `(i, u)`, the operand at `i`. -/
theorem cast_a_a1 {n : ℕ} (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    omega)

end Casts

/-! ## One-axis sums at the ideal values -/

section Sums
variable {φ : FTy}

/-- The sum over the classes of a 64 × 128 × 128 array, at `(w, k)`. -/
theorem sum_class (v : FVec Ideal S64x128x128 φ) (acc : BitVec φ.bits) (h : S64x128x128.Reduces [0] S128x128)
    (hφ : FKind.Formats φ) (hacc : acc = FKind.add.neutral φ hφ) (w k : Fin 128) :
    multiReduction .add [0] S128x128 v acc h hφ hacc (ix2 w k) = ∑ c : Fin 64, v (ix3 c w k) := by
  rw [Ideal.multiReduction_add_single]
  refine Finset.sum_congr rfl fun c _ => congrArg v ?_
  funext a; match a with | ⟨0, _⟩ => rfl | ⟨1, _⟩ => rfl | ⟨2, _⟩ => rfl

/-- The sum over the clusters of a 64 × 128 × 128 array, at `(c, w)`. -/
theorem sum_lane3 (v : FVec Ideal S64x128x128 φ) (acc : BitVec φ.bits) (h : S64x128x128.Reduces [2] S64x128)
    (hφ : FKind.Formats φ) (hacc : acc = FKind.add.neutral φ hφ) (c : Fin 64) (w : Fin 128) :
    multiReduction .add [2] S64x128 v acc h hφ hacc (ix2 c w) = ∑ k : Fin 128, v (ix3 c w k) := by
  rw [Ideal.multiReduction_add_single]
  refine Finset.sum_congr rfl fun k _ => congrArg v ?_
  funext a; match a with | ⟨0, _⟩ => rfl | ⟨1, _⟩ => rfl | ⟨2, _⟩ => rfl

/-- The sum over the second axis of an `m × n` array, at `i`. -/
theorem sum_axis1 {m n : ℕ} (v : FVec Ideal ⟨2, ![m, n]⟩ φ) (acc : BitVec φ.bits)
    (h : (⟨2, ![m, n]⟩ : Shape).Reduces [1] ⟨1, ![m]⟩)
    (hφ : FKind.Formats φ) (hacc : acc = FKind.add.neutral φ hφ) (i : Fin m) :
    multiReduction .add [1] ⟨1, ![m]⟩ v acc h hφ hacc (ix1 i) = ∑ j : Fin n, v (ix2 i j) := by
  rw [Ideal.multiReduction_add_single]
  refine Finset.sum_congr rfl fun j _ => congrArg v ?_
  funext a; match a with | ⟨0, _⟩ => rfl | ⟨1, _⟩ => rfl

/-- The sum over the first axis of an `m × 1` array, at its one index. -/
theorem sum_axis0 {m : ℕ} (v : FVec Ideal ⟨2, ![m, 1]⟩ φ) (acc : BitVec φ.bits)
    (h : (⟨2, ![m, 1]⟩ : Shape).Reduces [0] ⟨1, ![1]⟩)
    (hφ : FKind.Formats φ) (hacc : acc = FKind.add.neutral φ hφ) (u : Fin 1) :
    multiReduction .add [0] ⟨1, ![1]⟩ v acc h hφ hacc (ix1 u) = ∑ i : Fin m, v (ix2 i (0 : Fin 1)) := by
  rw [Ideal.multiReduction_add_single]
  refine Finset.sum_congr rfl fun i _ => congrArg v ?_
  funext a; match a with | ⟨0, _⟩ => rfl | ⟨1, _⟩ => exact Fin.ext (by show u.val = 0; omega)

end Sums

end Cert.BodySide

end
-- ==== Proof.Consts.lean ====
/-
  The float constants the two programs spell, as the extended reals their bit patterns denote.
-/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The bf16 pattern of `+0.0` denotes `0`. -/
theorem ofBits_zero_bf16 : Ideal.ofBits .bf16 0x0000#16 = 0 := by
  simp [Ideal.ofBits, Ideal.ieee]

/-- The pattern of `1.0` denotes `1`. -/
theorem ofBits_one : Ideal.ofBits .f32 0x3F800000#32 = ((1 : ℝ) : EReal) := by
  simp [Ideal.ofBits, Ideal.ieee, -EReal.coe_mul]; norm_num

/-- The pattern of `8.0` denotes `8`. -/
theorem ofBits_8 : Ideal.ofBits .f32 0x41000000#32 = ((8 : ℝ) : EReal) := by
  simp [Ideal.ofBits, Ideal.ieee, -EReal.coe_mul]; norm_num

/-- The pattern of `56.0` denotes `56`. -/
theorem ofBits_56 : Ideal.ofBits .f32 0x42600000#32 = ((56 : ℝ) : EReal) := by
  simp [Ideal.ofBits, Ideal.ieee, -EReal.coe_mul]; norm_num

/-- The pattern of `63.0` denotes `63`. -/
theorem ofBits_63 : Ideal.ofBits .f32 0x427C0000#32 = ((63 : ℝ) : EReal) := by
  simp [Ideal.ofBits, Ideal.ieee, -EReal.coe_mul]; norm_num

/-- The pattern of `64.0` denotes `64`. -/
theorem ofBits_64 : Ideal.ofBits .f32 0x42800000#32 = ((64 : ℝ) : EReal) := by
  simp [Ideal.ofBits, Ideal.ieee, -EReal.coe_mul]; norm_num

end Cert.Consts

end
-- ==== Proof.Spec.lean ====
/-
  The quantity both programs compute, written once over the reals.

  The argument is an array of integer labels `t[c, s, w]` (64 classes, 8 shots, 1024 positions).  A label `ℓ` is
  read as the one-hot row `k ↦ [ℓ - 1 = k]` over 128 clusters.  For a class `c`, position `w` and cluster `k`:

    hot t c s w k   = 1 if t[c, s, w] - 1 = k, else 0                     (one entry of the one-hot tensor)
    cnt t c w k     = ∑ s, hot t c s w k                                   (how many of the 8 shots hit cluster k)
    spread t w k    = the sample standard deviation (divisor 63), over the 64 classes, of the shot means cnt / 8
    within t c w k  = the sample standard deviation (divisor 7), over the 8 shots, of the one-hot entries

  and the result is  1 / (∑ w k, spread)  +  (∑ c w k, within) / 64,  with the extended reals' division
  (so that an all-equal input, whose first sum is 0, gives +∞ on both sides).
-/
import Idealize.ShloMosaic.PureOps.Ideal
import Idealize.ShloMosaic.Lib.ValueIdx

noncomputable section

open scoped BigOperators

namespace Cert.Spec

open Idealize.ShloMosaic Idealize.ShloMosaic.ValueIdx

/-- One entry of a one-hot row: the label `x` hits cluster `k` when `x - 1 = k` in 32-bit arithmetic. -/
def hotv (x : BitVec 32) (k : Fin 128) : ℝ := if x - 1#32 = BitVec.ofNat 32 k.val then 1 else 0

/-- The sample standard deviation (divisor 63) of the 64 numbers `n c / 8`. -/
def spreadOf (n : Fin 64 → ℝ) : ℝ :=
  Real.sqrt ((∑ c : Fin 64, (n c / 8 - (∑ c' : Fin 64, n c' / 8) / 64) ^ 2) / 63)

/-- The sample standard deviation (divisor 7) of 8 numbers. -/
def withinOf (o : Fin 8 → ℝ) : ℝ :=
  Real.sqrt ((∑ s : Fin 8, (o s - (∑ s' : Fin 8, o s') / 8) ^ 2) / 7)

/-! ## Over the whole label array -/

/-- The label array: 64 classes × 8 shots × 1024 positions of 32-bit integers. -/
abbrev Labels : Type := (⟨3, ![64, 8, 1024]⟩ : Shape).Idx → BitVec 32

/-- One entry of the one-hot tensor. -/
def hot (t : Labels) (c : Fin 64) (s : Fin 8) (w : Fin 1024) (k : Fin 128) : ℝ := hotv (t (ix3 c s w)) k

/-- How many of the 8 shots of class `c` hit cluster `k` at position `w`. -/
def cnt (t : Labels) (c : Fin 64) (w : Fin 1024) (k : Fin 128) : ℝ := ∑ s : Fin 8, hot t c s w k

/-- The between-class deviation at position `w`, cluster `k`. -/
def spread (t : Labels) (w : Fin 1024) (k : Fin 128) : ℝ := spreadOf (fun c => cnt t c w k)

/-- The within-class deviation of class `c` at position `w`, cluster `k`. -/
def within (t : Labels) (c : Fin 64) (w : Fin 1024) (k : Fin 128) : ℝ := withinOf (fun s => hot t c s w k)

/-- The between-class total. -/
def interSum (t : Labels) : ℝ := ∑ w : Fin 1024, ∑ k : Fin 128, spread t w k

/-- The within-class total. -/
def inSum (t : Labels) : ℝ := ∑ c : Fin 64, ∑ w : Fin 1024, ∑ k : Fin 128, within t c w k

/-- The result: the reciprocal of the between-class total plus the mean over classes of the within-class totals. -/
def loss (t : Labels) : EReal :=
  Ideal.div 1 ((interSum t : ℝ) : EReal) + Ideal.div ((inSum t : ℝ) : EReal) ((64 : ℝ) : EReal)

/-! ## Over one tile of 128 positions, given as its 8 shot rows -/

/-- One shot's labels over a tile: 64 classes × 128 positions. -/
abbrev Row : Type := (⟨3, ![64, 1, 128]⟩ : Shape).Idx → BitVec 32

/-- The count over a tile's rows. -/
def cntRows (r : Fin 8 → Row) (c : Fin 64) (w : Fin 128) (k : Fin 128) : ℝ := ∑ s : Fin 8, hotv (r s (ix3 c 0 w)) k

/-- A tile's share of the between-class total. -/
def spreadRows (r : Fin 8 → Row) : ℝ := ∑ w : Fin 128, ∑ k : Fin 128, spreadOf (fun c => cntRows r c w k)

/-- A tile's share of the within-class total. -/
def withinRows (r : Fin 8 → Row) : ℝ :=
  ∑ c : Fin 64, ∑ w : Fin 128, ∑ k : Fin 128, withinOf (fun s => hotv (r s (ix3 c 0 w)) k)

end Cert.Spec

end
-- ==== Proof.BodyCount.lean ====
/-
  The count the body computes, read at a class, position and cluster.

  For one shot the body compares, as floats, the label less one with the cluster number, and converts the one-bit
  answer to a float.  At the ideal values an integer converts to itself, exactly, and two 32-bit integers are equal as
  reals exactly when they are equal words; so the shot contributes 1 when `label - 1` is the cluster and 0 otherwise: the
  one-hot entry.  The eight contributions are added onto zero, and a change of float format changes nothing.
-/
import proofs.«113341_j75222057222180_2_alg».proof.Proof.BodyLayout
import proofs.«113341_j75222057222180_2_alg».proof.Proof.Consts
import proofs.«113341_j75222057222180_2_alg».proof.Proof.Spec

noncomputable section

open scoped BigOperators

namespace Cert.BodySide

open Idealize.ShloMosaic Idealize.ShloMosaic.ValueIdx Cert.KernelIdeal Cert.KernelIdeal.Gen Cert.KernelSide

/-- One shot's comparison on one label `x` and cluster `k`, converted to a float: the one-hot entry. -/
theorem shot_scalar (x : BitVec 32) (k : Fin 128) :
    FloatOps.sitofp (F := Ideal) .f32
      ((FloatOps.cmpf (F := Ideal) (φ := .bf16) .oeq
          (FloatOps.sitofp .bf16 (IntOp.subi x 1#32)) (FloatOps.sitofp .bf16 (BitVec.ofNat 32 k.val))).setWidth 32)
    = ((Cert.Spec.hotv x k : ℝ) : EReal) := by
  show ((((BitVec.ofBool (decide ((((x - 1#32).toInt : ℝ) : EReal) = (((BitVec.ofNat 32 k.val).toInt : ℝ) : EReal)))).setWidth 32).toInt : ℝ) : EReal) = _
  unfold Cert.Spec.hotv
  by_cases h : x - 1#32 = BitVec.ofNat 32 k.val
  · rw [if_pos h, decide_eq_true (by rw [h])]
    show (((1 : ℤ) : ℝ) : EReal) = _
    norm_num
  · have hne : ¬ ((((x - 1#32).toInt : ℝ) : EReal) = (((BitVec.ofNat 32 k.val).toInt : ℝ) : EReal)) := by
      intro e
      exact h (BitVec.eq_of_toInt_eq (by exact_mod_cast e))
    rw [if_neg h, decide_eq_false hne]
    show (((0 : ℤ) : ℝ) : EReal) = _
    norm_num

/-- The cluster row at cluster `k` is the number `k`. -/
theorem lane_apply (k : Fin 128) :
    k0_pay7 (F := Ideal) (ix3 (0 : Fin 1) (0 : Fin 1) k) = FloatOps.sitofp (F := Ideal) .bf16 (BitVec.ofNat 32 k.val) := by
  show FloatOps.sitofp (F := Ideal) .bf16
      (iota .tc S1x1x128 32 [2] iota_S1x1x128_d2_w32 (ix3 (0 : Fin 1) (0 : Fin 1) k)) = _
  exact congrArg (FloatOps.sitofp (F := Ideal) .bf16) (iota_single_apply .tc S1x1x128 32 2 _ _)

/-- One shot's one-hot array, as a float, at class `c`, position `w` and cluster `k`. -/
theorem hot_apply (row : Vec Ideal S64x1x128 .i32) (c : Fin 64) (w k : Fin 128) :
    (sitofp (F := Ideal) .f32 (k0_pay9 (F := Ideal) row)) (ix3 c w k)
      = ((Cert.Spec.hotv (row (ix3 c (0 : Fin 1) w)) k : ℝ) : EReal) := by
  simp only [k0_pay9, sitofp_apply, extui_apply, cmpf_apply, bcast_col, bcast_lane, cast_col, cast_row, subi,
    broadcast_apply, lane_apply]
  exact shot_scalar _ k

/-- The count over the eight shots. -/
theorem countOf_apply (r : Fin 8 → Vec Ideal S64x1x128 .i32) (c : Fin 64) (w k : Fin 128) :
    countOf (F := Ideal) r (ix3 c w k) = ((Cert.Spec.cntRows r c w k : ℝ) : EReal) := by
  have e : countOf (F := Ideal) r (ix3 c w k)
      = Ideal.ofBits .bf16 0x0000#16
        + (sitofp (F := Ideal) .f32 (k0_pay9 (F := Ideal) (r 0))) (ix3 c w k)
        + (sitofp (F := Ideal) .f32 (k0_pay9 (F := Ideal) (r 1))) (ix3 c w k)
        + (sitofp (F := Ideal) .f32 (k0_pay9 (F := Ideal) (r 2))) (ix3 c w k)
        + (sitofp (F := Ideal) .f32 (k0_pay9 (F := Ideal) (r 3))) (ix3 c w k)
        + (sitofp (F := Ideal) .f32 (k0_pay9 (F := Ideal) (r 4))) (ix3 c w k)
        + (sitofp (F := Ideal) .f32 (k0_pay9 (F := Ideal) (r 5))) (ix3 c w k)
        + (sitofp (F := Ideal) .f32 (k0_pay9 (F := Ideal) (r 6))) (ix3 c w k)
        + (sitofp (F := Ideal) .f32 (k0_pay9 (F := Ideal) (r 7))) (ix3 c w k) := rfl
  rw [e]
  simp only [hot_apply, Cert.Consts.ofBits_zero_bf16, zero_add, Cert.Spec.cntRows, Fin.sum_univ_eight, EReal.coe_add]

end Cert.BodySide

end
-- ==== Proof.Moments.lean ====
/-
  Two facts about sample deviations over the reals.

  For eight numbers that are each 0 or 1, with sum `n`, the sum of squared deviations from the mean `n / 8` is
  `n - n² / 8 = n (8 - n) / 8` (because `x² = x` for such numbers), so the sample variance with divisor 7 is
  `n (8 - n) / 56`; it is a sum of squares over 7, hence nonnegative.

  For sixty-four numbers `n c`, the numbers `n c / 8` deviate from their mean by one eighth of what the `n c` deviate
  from theirs, so their sample variance is one sixty-fourth of that of the `n c` and their sample standard deviation one
  eighth.
-/
import proofs.«113341_j75222057222180_2_alg».proof.Proof.Spec

noncomputable section

open scoped BigOperators

namespace Cert.Moments

/-- The sample variance (divisor 7) of eight 0/1 numbers with sum `n` is `n (8 - n) / 56`. -/
theorem within_var (o : Fin 8 → ℝ) (ho : ∀ s, o s = 0 ∨ o s = 1) :
    (∑ s, o s) * (8 - ∑ s, o s) / 56 = (∑ s, (o s - (∑ s', o s') / 8) ^ 2) / 7 := by
  have hsq : ∀ s, o s ^ 2 = o s := fun s => by
    rcases ho s with h | h <;> rw [h] <;> norm_num
  simp only [Fin.sum_univ_eight]
  linear_combination (-1 / 7 : ℝ) * (hsq 0 + hsq 1 + hsq 2 + hsq 3 + hsq 4 + hsq 5 + hsq 6 + hsq 7)

/-- … and it is nonnegative. -/
theorem within_var_nonneg (o : Fin 8 → ℝ) (ho : ∀ s, o s = 0 ∨ o s = 1) :
    0 ≤ (∑ s, o s) * (8 - ∑ s, o s) / 56 := by
  rw [within_var o ho]
  exact div_nonneg (Finset.sum_nonneg fun _ _ => sq_nonneg _) (by norm_num)

/-- So the square root of that expression, clamped at zero first, is the sample standard deviation. -/
theorem sqrt_within (o : Fin 8 → ℝ) (ho : ∀ s, o s = 0 ∨ o s = 1) :
    Real.sqrt (max ((∑ s, o s) * (8 - ∑ s, o s) / 56) 0) = Cert.Spec.withinOf o := by
  rw [max_eq_left (within_var_nonneg o ho), within_var o ho]
  rfl

/-- A sample variance (divisor 63) is nonnegative. -/
theorem spread_var_nonneg (n : Fin 64 → ℝ) : 0 ≤ (∑ c, (n c - (∑ c', n c') / 64) ^ 2) / 63 :=
  div_nonneg (Finset.sum_nonneg fun _ _ => sq_nonneg _) (by norm_num)

/-- The sample standard deviation of the numbers `n c / 8` is one eighth of that of the `n c`. -/
theorem sqrt_spread (n : Fin 64 → ℝ) :
    Real.sqrt ((∑ c, (n c - (∑ c', n c') / 64) ^ 2) / 63) / 8 = Cert.Spec.spreadOf n := by
  unfold Cert.Spec.spreadOf
  have h8 : Real.sqrt 64 = 8 := by
    rw [show (64 : ℝ) = 8 ^ 2 by norm_num]; exact Real.sqrt_sq (by norm_num)
  have hs : (∑ c' : Fin 64, n c' / 8) = (∑ c', n c') / 8 := (Finset.sum_div _ _ _).symm
  have ht : ∀ c, (n c / 8 - (∑ c' : Fin 64, n c' / 8) / 64) ^ 2 = (n c - (∑ c', n c') / 64) ^ 2 / 64 := by
    intro c; rw [hs]; ring
  have key : (∑ c, (n c / 8 - (∑ c' : Fin 64, n c' / 8) / 64) ^ 2) / 63
      = (∑ c, (n c - (∑ c', n c') / 64) ^ 2) / 63 / 64 := by
    rw [Finset.sum_congr rfl fun c _ => ht c, ← Finset.sum_div]
    ring
  rw [key, Real.sqrt_div' _ (by norm_num : (0 : ℝ) ≤ 64), h8]

/-- The same with the variance clamped at zero first. -/
theorem sqrt_spread_max (n : Fin 64 → ℝ) :
    Real.sqrt (max ((∑ c, (n c - (∑ c', n c') / 64) ^ 2) / 63) 0) / 8 = Cert.Spec.spreadOf n := by
  rw [max_eq_left (spread_var_nonneg n)]; exact sqrt_spread n

end Cert.Moments

end
-- ==== Proof.BodyValue.lean ====
/-
  What one grid step adds to the two running totals, at the ideal values.

  Every value here is a finite real: a count is a sum of eight numbers that are 0 or 1.  On finite reals the extended
  reals' sum, difference, product, quotient by a nonzero constant, maximum with zero and square root of a nonnegative
  number are the reals' own, so each step of the body is the same step on real numbers.

  Between classes: at a position and cluster the body takes the mean over the 64 classes of the counts, the squared
  deviations from it, their sum over 63, clamps at zero, takes the square root and divides by 8; that is the sample
  standard deviation of the shot means `count / 8`.  It then adds these over clusters and positions.

  Within a class: at a class, position and cluster the body takes `n (8 - n) / 56` of the count `n`, clamps at zero
  and takes the square root; that is the sample standard deviation of the eight one-hot entries.  It then adds these
  over clusters, positions and classes.
-/
import proofs.«113341_j75222057222180_2_alg».proof.Proof.BodyCount
import proofs.«113341_j75222057222180_2_alg».proof.Proof.Moments

noncomputable section

open scoped BigOperators

namespace Cert.BodySide

open Idealize.ShloMosaic Idealize.ShloMosaic.ValueIdx Cert.KernelIdeal Cert.KernelIdeal.Gen Cert.KernelSide

/-! ## The extended reals' operations on finite values -/

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A quotient of reals by a nonzero real. -/
theorem div_real (x : ℝ) {y : ℝ} (hy : y ≠ 0) : Ideal.div (x : EReal) (y : EReal) = ((x / y : ℝ) : EReal) := by
  rw [Ideal.div_coe hy, ← EReal.coe_mul, mul_one_div]

/-- The square root of a nonnegative real. -/
theorem sqrt_real {x : ℝ} (hx : 0 ≤ x) : Ideal.sqrt (x : EReal) = ((Real.sqrt x : ℝ) : EReal) := by
  rw [Ideal.sqrt_coe, if_neg (not_lt.mpr hx)]

/-- The maximum of a real and zero. -/
theorem max_zero_real (x : ℝ) : max (x : EReal) 0 = ((max x 0 : ℝ) : EReal) := by
  rw [← EReal.coe_zero]; exact (EReal.coe_strictMono.monotone.map_max).symm

/-- The elementwise square root at an index. -/
theorem sqrt_apply {s : Shape} {φ : FTy} (a : FVec Ideal s φ) (i : s.Idx) :
    Idealize.ShloMosaic.sqrt a i = Ideal.sqrt (a i) := rfl

/-! ## The two deviations on real counts -/

/-- A one-hot entry is 0 or 1. -/
theorem hotv_zero_or_one (x : BitVec 32) (k : Fin 128) : Cert.Spec.hotv x k = 0 ∨ Cert.Spec.hotv x k = 1 := by
  unfold Cert.Spec.hotv; split_ifs
  · exact Or.inr rfl
  · exact Or.inl rfl

/-- The within-class expression on a real count. -/
theorem within_scalar (n : ℝ) :
    Ideal.sqrt (max (Ideal.div ((n : EReal) * (Ideal.ofBits .f32 0x41000000#32 - (n : EReal)))
        (Ideal.ofBits .f32 0x42600000#32)) (Ideal.ofBits .f32 0x00000000#32))
      = ((Real.sqrt (max (n * (8 - n) / 56) 0) : ℝ) : EReal) := by
  rw [Cert.Consts.ofBits_8, Cert.Consts.ofBits_56, Cert.Consts.ofBits_zero, ← EReal.coe_sub, ← EReal.coe_mul,
    div_real _ (by norm_num), max_zero_real, sqrt_real (le_max_right _ _)]

/-- The between-class expression on 64 real counts. -/
theorem spread_scalar (n : Fin 64 → ℝ) :
    Ideal.div (Ideal.sqrt (max (Ideal.div
        (∑ c : Fin 64, ((n c : EReal) - Ideal.div (∑ c' : Fin 64, (n c' : EReal)) (Ideal.ofBits .f32 0x42800000#32))
          * ((n c : EReal) - Ideal.div (∑ c' : Fin 64, (n c' : EReal)) (Ideal.ofBits .f32 0x42800000#32)))
        (Ideal.ofBits .f32 0x427C0000#32)) (Ideal.ofBits .f32 0x00000000#32))) (Ideal.ofBits .f32 0x41000000#32)
      = ((Cert.Spec.spreadOf n : ℝ) : EReal) := by
  have hm : Ideal.div (∑ c' : Fin 64, (n c' : EReal)) (Ideal.ofBits .f32 0x42800000#32)
      = (((∑ c', n c') / 64 : ℝ) : EReal) := by
    rw [Cert.Consts.ofBits_64, ← coe_sum, div_real _ (by norm_num)]
  have hs : (∑ c : Fin 64, ((n c : EReal) - (((∑ c', n c') / 64 : ℝ) : EReal))
        * ((n c : EReal) - (((∑ c', n c') / 64 : ℝ) : EReal)))
      = ((∑ c, (n c - (∑ c', n c') / 64) ^ 2 : ℝ) : EReal) := by
    rw [coe_sum]
    refine Finset.sum_congr rfl fun c _ => ?_
    rw [← EReal.coe_sub, ← EReal.coe_mul, sq]
  rw [hm, hs, Cert.Consts.ofBits_63, Cert.Consts.ofBits_zero, Cert.Consts.ofBits_8, div_real _ (by norm_num),
    max_zero_real, sqrt_real (le_max_right _ _), div_real _ (by norm_num), Cert.Moments.sqrt_spread_max]

/-- The count, as the body's later steps spell it. -/
theorem count_apply (r : Fin 8 → Vec Ideal S64x1x128 .i32) (c : Fin 64) (w k : Fin 128) :
    k0_pay12 (F := Ideal) k0_pay7 (partialCount r) (seventh r) 1#32 (r 7) (ix3 c w k)
      = ((Cert.Spec.cntRows r c w k : ℝ) : EReal) := countOf_apply r c w k

/-! ## The deviation from the class mean -/

/-- A count less the mean over the classes of the counts at its position and cluster. -/
theorem dev_apply (N : FVec Ideal S64x128x128 .f32) (h1 : S64x128x128.Reduces [0] S128x128)
    (hφ : FKind.Formats .f32) (hacc : 0x00000000#32 = FKind.add.neutral .f32 hφ)
    (h2 : S128x128.ShapeCasts S1x128x128) (h3 : S1x128x128.Broadcasts S64x128x128) (c : Fin 64) (w k : Fin 128) :
    subf N (broadcastTo S64x128x128 (divf (shapeCast S1x128x128
        (multiReduction .add [0] S128x128 N 0x00000000#32 h1 hφ hacc) h2)
        (broadcast S1x128x128 (Ideal.ofBits .f32 0x42800000#32))) h3) (ix3 c w k)
      = N (ix3 c w k) - Ideal.div (∑ c' : Fin 64, N (ix3 c' w k)) (Ideal.ofBits .f32 0x42800000#32) := by
  show N (ix3 c w k) - broadcastTo S64x128x128 _ h3 (ix3 c w k) = _
  rw [bcast_class]
  show N (ix3 c w k) - Ideal.div (shapeCast S1x128x128 _ h2 (ix3 (0 : Fin 1) w k)) _ = _
  rw [shapeCast_ab_1ab_apply, sum_class]
  rfl

/-! ## The two steps -/

/-- A step adds the tile's within-class share. -/
theorem inStep_apply (r : Fin 8 → Vec Ideal S64x1x128 .i32) (acc : Vec Ideal S1x1 .f32) :
    inStep (F := Ideal) r acc (ix2 (0 : Fin 1) (0 : Fin 1))
      = acc (ix2 (0 : Fin 1) (0 : Fin 1)) + ((Cert.Spec.withinRows r : ℝ) : EReal) := by
  simp only [inStep, k0_pay2, shapeCast_self, addf_apply, shapeCast_a_1a_apply, Ideal.ofBits_def]
  congr 1
  refine (sum_axis0 _ _ _ _ _ _).trans ?_
  unfold Cert.Spec.withinRows
  rw [coe_sum]; refine Finset.sum_congr rfl fun c _ => ?_
  refine (cast_a_a1 _ _ _ _).trans ?_
  refine (sum_axis1 _ _ _ _ _ _).trans ?_
  rw [coe_sum]; refine Finset.sum_congr rfl fun w _ => ?_
  refine (sum_lane3 _ _ _ _ _ _ _).trans ?_
  rw [coe_sum]; refine Finset.sum_congr rfl fun k _ => ?_
  simp only [sqrt_apply, maximumf_apply, divf_apply, mulf_apply, subf_apply, broadcast_apply, countOf_apply,
    within_scalar]
  exact congrArg _ (Cert.Moments.sqrt_within (fun s => Cert.Spec.hotv (r s (ix3 c (0 : Fin 1) w)) k)
    (fun s => hotv_zero_or_one _ _))

/-- A step adds the tile's between-class share. -/
theorem interStep_apply (r : Fin 8 → Vec Ideal S64x1x128 .i32) (acc : Vec Ideal S1x1 .f32) :
    interStep (F := Ideal) r acc (ix2 (0 : Fin 1) (0 : Fin 1))
      = acc (ix2 (0 : Fin 1) (0 : Fin 1)) + ((Cert.Spec.spreadRows r : ℝ) : EReal) := by
  simp only [interStep, k0_pay13, addf_apply, shapeCast_a_1a_apply, Ideal.ofBits_def]
  congr 1
  refine (sum_axis0 _ _ _ _ _ _).trans ?_
  unfold Cert.Spec.spreadRows
  rw [coe_sum]; refine Finset.sum_congr rfl fun w _ => ?_
  refine (cast_a_a1 _ _ _ _).trans ?_
  refine (sum_axis1 _ _ _ _ _ _).trans ?_
  rw [coe_sum]; refine Finset.sum_congr rfl fun k _ => ?_
  refine Eq.trans ?_ (spread_scalar (fun c => Cert.Spec.cntRows r c w k))
  simp only [divf_apply, sqrt_apply, maximumf_apply, broadcast_apply]
  refine congrArg (fun x => Ideal.div (Ideal.sqrt (max (Ideal.div x _) _)) _) ?_
  refine (sum_class _ _ _ _ _ _ _).trans (Finset.sum_congr rfl fun c _ => ?_)
  refine (congrArg (fun x : EReal => x * x) (dev_apply _ _ _ _ _ _ c w k)).trans ?_
  simp only [count_apply]

end Cert.BodySide

end
-- ==== Proof.KernelValue.lean ====
/-
  The kernel's result over the extended reals is the specification's `loss` of the labels.

  A step adds its tile's share to a running total (the body's arithmetic, read at the ideal values); a tile's share is the
  specification's terms summed over the tile's 128 positions; a core's total is its four tiles' shares; the two cores'
  totals together run over all 1024 positions; and the host's reciprocal, quotient by 64 and sum are the specification's.
-/
import proofs.«113341_j75222057222180_2_alg».proof.Proof.Tail
import proofs.«113341_j75222057222180_2_alg».proof.Proof.Tiles
import proofs.«113341_j75222057222180_2_alg».proof.Proof.BodyValue
import proofs.«113341_j75222057222180_2_alg».proof.Proof.Spec
import proofs.«113341_j75222057222180_2_alg».proof.Proof.Consts
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelSide

open Cert.KernelIdeal Cert.KernelIdeal.Gen

variable (m : (ℓ : Loc nD τ sig) → Buf (Elt Ideal) ℓ) (ρ : Dev nD → PrngReg)

/-- The label array on core `c`. -/
abbrev labels (c : Dev nD) : Cert.Spec.Labels := m ((c.tc : Thread nD τ).loc main_arg0)

/-! ## A tile's shares are the specification's terms over the tile's positions -/

/-- Tile `t`'s share of the between-class total. -/
def tileSpread (c : Dev nD) (t : Fin cfg0.N) : ℝ :=
  ∑ w' : Fin 128, ∑ k : Fin 128, Cert.Spec.spread (labels m c) (posOf t w') k

/-- Tile `t`'s share of the within-class total. -/
def tileWithin (c : Dev nD) (t : Fin cfg0.N) : ℝ :=
  ∑ c' : Fin 64, ∑ w' : Fin 128, ∑ k : Fin 128, Cert.Spec.within (labels m c) c' (posOf t w') k

theorem spreadRows_tile (c : Dev nD) (t : Fin cfg0.N) :
    Cert.Spec.spreadRows (rows (iblk m c 0 t)) = tileSpread m c t := by
  simp only [Cert.Spec.spreadRows, Cert.Spec.cntRows, tile_apply]
  rfl

theorem withinRows_tile (c : Dev nD) (t : Fin cfg0.N) :
    Cert.Spec.withinRows (rows (iblk m c 0 t)) = tileWithin m c t := by
  simp only [Cert.Spec.withinRows, tile_apply]
  rfl

/-! ## The running totals as real numbers -/

/-- The between-class running total after step `n`, as a real number. -/
def runInter (c : Dev nD) : (n : ℕ) → n < cfg0.N → ℝ
  | 0, h => tileSpread m c ⟨0, h⟩
  | n + 1, h =>
    if (n + 1) % 4 = 0 then tileSpread m c ⟨n + 1, h⟩
    else runInter c n (Nat.lt_of_succ_lt h) + tileSpread m c ⟨n + 1, h⟩

/-- The within-class running total after step `n`, as a real number. -/
def runWithin (c : Dev nD) : (n : ℕ) → n < cfg0.N → ℝ
  | 0, h => tileWithin m c ⟨0, h⟩
  | n + 1, h =>
    if (n + 1) % 4 = 0 then tileWithin m c ⟨n + 1, h⟩
    else runWithin c n (Nat.lt_of_succ_lt h) + tileWithin m c ⟨n + 1, h⟩

/-- The reset's zero is the real zero. -/
theorem zeroAcc_apply : (zeroAcc (F := Ideal)) (ix2 0 0) = 0 := Cert.Consts.ofBits_zero

theorem totals_inter (c : Dev nD) : ∀ (n : ℕ) (h : n < cfg0.N),
    (totals m c n h).1 (ix2 0 0) = ((runInter m c n h : ℝ) : EReal)
  | 0, h => by
    show interStep (rows (iblk m c 0 ⟨0, h⟩)) zeroAcc (ix2 0 0) = _
    rw [Cert.BodySide.interStep_apply, zeroAcc_apply, zero_add, spreadRows_tile]
    rfl
  | n + 1, h => by
    by_cases h0 : (n + 1) % 4 = 0
    · rw [totals_restart m c n h h0]
      show interStep (rows (iblk m c 0 ⟨n + 1, h⟩)) zeroAcc (ix2 0 0) = _
      rw [Cert.BodySide.interStep_apply, zeroAcc_apply, zero_add, spreadRows_tile, runInter, if_pos h0]
    · rw [totals_advance m c n h h0]
      show interStep (rows (iblk m c 0 ⟨n + 1, h⟩)) (totals m c n _).1 (ix2 0 0) = _
      rw [Cert.BodySide.interStep_apply, totals_inter c n, spreadRows_tile, runInter, if_neg h0, EReal.coe_add]

theorem totals_within (c : Dev nD) : ∀ (n : ℕ) (h : n < cfg0.N),
    (totals m c n h).2 (ix2 0 0) = ((runWithin m c n h : ℝ) : EReal)
  | 0, h => by
    show inStep (rows (iblk m c 0 ⟨0, h⟩)) zeroAcc (ix2 0 0) = _
    rw [Cert.BodySide.inStep_apply, zeroAcc_apply, zero_add, withinRows_tile]
    rfl
  | n + 1, h => by
    by_cases h0 : (n + 1) % 4 = 0
    · rw [totals_restart m c n h h0]
      show inStep (rows (iblk m c 0 ⟨n + 1, h⟩)) zeroAcc (ix2 0 0) = _
      rw [Cert.BodySide.inStep_apply, zeroAcc_apply, zero_add, withinRows_tile, runWithin, if_pos h0]
    · rw [totals_advance m c n h h0]
      show inStep (rows (iblk m c 0 ⟨n + 1, h⟩)) (totals m c n _).2 (ix2 0 0) = _
      rw [Cert.BodySide.inStep_apply, totals_within c n, withinRows_tile, runWithin, if_neg h0, EReal.coe_add]

/-! ## The eight tiles are all the positions -/

/-- A sum over the 1024 positions is the sum over the eight tiles of the sums over each tile's 128 positions. -/
theorem sum_positions (g : Fin 1024 → ℝ) :
    ∑ w : Fin 1024, g w = ∑ t : Fin cfg0.N, ∑ w' : Fin 128, g (posOf t w') := by
  have hN : cfg0.N = 8 := N_0
  rw [← Fintype.sum_prod_type' (f := fun (t : Fin cfg0.N) (w' : Fin 128) => g (posOf t w'))]
  refine (Fintype.sum_equiv (finProdFinEquiv (m := 8) (n := 128)) (fun p => g (posOf (Fin.cast hN.symm p.1) p.2)) g
    (fun p => congrArg g (Fin.ext ?_))).symm.trans ?_
  · show 128 * p.1.val + p.2.val = p.2.val + 128 * p.1.val
    omega
  · exact Fintype.sum_equiv ((finCongr hN.symm).prodCongr (Equiv.refl _)) _ _ (fun p => rfl)

/-- The eight steps, one by one. -/
theorem sum_steps (f : Fin cfg0.N → ℝ) :
    ∑ t : Fin cfg0.N, f t = (f t0_0 + f t0_1 + f t0_2 + f t0_3) + (f t0_4 + f t0_5 + f t0_6 + f t0_7) := by
  have hN : cfg0.N = 8 := N_0
  rw [← Fintype.sum_equiv (finCongr hN.symm) (fun i => f (Fin.cast hN.symm i)) f (fun i => rfl), Fin.sum_univ_eight]
  simp only [add_assoc]
  rfl

/-! ## The two result arrays and the host's combination, at the ideal values -/

theorem interArr_apply (c : Dev nD) (κ : Fin 2) :
    interArr m c (ix3 κ 0 0)
      = ((runInter m c (4 * κ.val + 3) (by have := κ.isLt; rw [show cfg0.N = 8 from N_0]; omega) : ℝ) : EReal) :=
  totals_inter m c _ _

theorem withinArr_apply (c : Dev nD) (κ : Fin 2) :
    withinArr m c (ix3 κ 0 0)
      = ((runWithin m c (4 * κ.val + 3) (by have := κ.isLt; rw [show cfg0.N = 8 from N_0]; omega) : ℝ) : EReal) :=
  totals_within m c _ _

/-- A core's between-class total is its four tiles' shares. -/
theorem runInter_core0 (c : Dev nD) (h : 3 < cfg0.N) :
    runInter m c 3 h = tileSpread m c t0_0 + tileSpread m c t0_1 + tileSpread m c t0_2 + tileSpread m c t0_3 := rfl
theorem runInter_core1 (c : Dev nD) (h : 7 < cfg0.N) :
    runInter m c 7 h = tileSpread m c t0_4 + tileSpread m c t0_5 + tileSpread m c t0_6 + tileSpread m c t0_7 := rfl
theorem runWithin_core0 (c : Dev nD) (h : 3 < cfg0.N) :
    runWithin m c 3 h = tileWithin m c t0_0 + tileWithin m c t0_1 + tileWithin m c t0_2 + tileWithin m c t0_3 := rfl
theorem runWithin_core1 (c : Dev nD) (h : 7 < cfg0.N) :
    runWithin m c 7 h = tileWithin m c t0_4 + tileWithin m c t0_5 + tileWithin m c t0_6 + tileWithin m c t0_7 := rfl

/-- The two cores' between-class totals together are the specification's. -/
theorem inter_total (c : Dev nD) (h3 : 3 < cfg0.N) (h7 : 7 < cfg0.N) :
    runInter m c 3 h3 + runInter m c 7 h7 = Cert.Spec.interSum (labels m c) := by
  rw [runInter_core0, runInter_core1, Cert.Spec.interSum, sum_positions, sum_steps]
  rfl

/-- The two cores' within-class totals together are the specification's. -/
theorem within_total (c : Dev nD) (h3 : 3 < cfg0.N) (h7 : 7 < cfg0.N) :
    runWithin m c 3 h3 + runWithin m c 7 h7 = Cert.Spec.inSum (labels m c) := by
  rw [runWithin_core0, runWithin_core1, Cert.Spec.inSum]
  have e : ∀ c' : Fin 64, (∑ w : Fin 1024, ∑ k : Fin 128, Cert.Spec.within (labels m c) c' w k)
      = ∑ t : Fin cfg0.N, ∑ w' : Fin 128, ∑ k : Fin 128, Cert.Spec.within (labels m c) c' (posOf t w') k :=
    fun c' => sum_positions (fun w => ∑ k : Fin 128, Cert.Spec.within (labels m c) c' w k)
  simp only [e]
  rw [Finset.sum_comm, sum_steps]
  rfl

/-- A two-entry array's sum. -/
theorem sum_two (f : S2.Idx → EReal) : ∑ i : S2.Idx, f i = f (ix1 0) + f (ix1 1) := by
  let e : S2.Idx ≃ Fin 2 := ⟨fun i => i 0, fun a => ix1 a, fun i => (eq_ix1 i).symm, fun a => rfl⟩
  rw [← Equiv.sum_comp e.symm f]
  exact Fin.sum_univ_two _

/-- The two-entry arrays flattened: entry `κ` is entry `(κ, 0, 0)`. -/
theorem flat_apply (a : S2x1x1.Idx → EReal) (κ : Fin 2) :
    shapeCast S2 a shapeCasts_S2x1x1_S2 (ix1 κ) = a (ix3 κ 0 0) :=
  shapeCast_apply a _ _ _ (by rw [Shape.rowMajor_val_three, Shape.rowMajor_val_one]; simp)

/-- The host's combination at the ideal values. -/
theorem combine_apply (a b : S2x1x1.Idx → EReal) (j : S_.Idx) :
    combine (F := Ideal) a b j
      = Ideal.div 1 (a (ix3 0 0 0) + a (ix3 1 0 0)) + Ideal.div (b (ix3 0 0 0) + b (ix3 1 0 0)) ((64 : ℝ) : EReal) := by
  show Ideal.div (Ideal.ofBits .f32 0x3F800000#32)
        (Ideal.hostReduceAdd reducesTo_S2_S_d0 (shapeCast S2 a shapeCasts_S2x1x1_S2) (Ideal.ofBits .f32 0x00000000#32) j)
      + Ideal.div (Ideal.hostReduceAdd reducesTo_S2_S_d0 (shapeCast S2 b shapeCasts_S2x1x1_S2) (Ideal.ofBits .f32 0x00000000#32) j)
        (Ideal.ofBits .f32 0x42800000#32) = _
  rw [Ideal.hostReduceAdd_total _ (fun b => b.elim0), Ideal.hostReduceAdd_total _ (fun b => b.elim0), sum_two, sum_two,
    flat_apply, flat_apply, flat_apply, flat_apply, Cert.Consts.ofBits_zero, Cert.Consts.ofBits_one, Cert.Consts.ofBits_64,
    zero_add, zero_add, EReal.coe_one]

/-- THE KERNEL'S VALUE: the combination of the per-core totals is the specification's `loss` of the labels. -/
theorem value_eq (c : Dev nD) :
    combine (interArr m c) (withinArr m c) = fun _ => Cert.Spec.loss (labels m c) := by
  have hN : cfg0.N = 8 := N_0
  funext j
  rw [combine_apply, interArr_apply, interArr_apply, withinArr_apply, withinArr_apply, ← EReal.coe_add, ← EReal.coe_add]
  show Ideal.div 1 ((runInter m c 3 _ + runInter m c 7 _ : ℝ) : EReal)
      + Ideal.div ((runWithin m c 3 _ + runWithin m c 7 _ : ℝ) : EReal) ((64 : ℝ) : EReal) = _
  rw [inter_total, within_total]
  rfl

/-- The kernel's run at the ideal values: the result is the specification's `loss` of the labels, which stay. -/
theorem run_value : θ_run defs (onTc (τ := τ) (main (F := Ideal))) ⟨m, fun _ => 0, ρ⟩ fun r => ∀ c : Dev nD,
      r.2.mem ((c.tc : Thread nD τ).loc main_v7) = (fun _ => Cert.Spec.loss (labels m c))
      ∧ r.2.mem ((c.tc : Thread nD τ).loc main_arg0) = m ((c.tc : Thread nD τ).loc main_arg0) :=
  (θ_run defs _ _).mono (fun _ h c => ⟨((h c).1).trans (value_eq m c), (h c).2⟩) (run m ρ)

end Cert.KernelSide

end
-- ==== Proof.RefRun.lean ====
/-
  The reference program's run: @main, with its module-local functions unfolded at their calls, is a straight
  line of 75 host operations; every weakly fair execution terminates with the result buffer at the operations'
  composed term of the label array, written here as a handful of named stages, and the argument unchanged.
-/
import proofs.«113341_j75222057222180_2_alg».proof.ReferenceIdeal
import Idealize.ShloMosaic.Lib.StableHlo.Run

noncomputable section

namespace Cert.RefSide

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-! ## The stages of the composed term -/

/-- The one-hot tensor: entry `(c, s, w, k)` is `1` when the label at `(c, s, w)`, less one, equals `k`. -/
def oneHot (t : (⟨S64x8x1024, .i32⟩ : BufTy).Contents (Elt F)) : (⟨S64x8x1024x128, .f32⟩ : BufTy).Contents (Elt F) :=
  uitofp .f32 (cmpi .eq
    (broadcastInDim S64x8x1024x128 ![0, 1, 2, 3] bcast_S64x8x1024x1_S64x8x1024x128_0_1_2_3
      (broadcastInDim S64x8x1024x1 ![0, 1, 2] bcast_S64x8x1024_S64x8x1024x1_0_1_2
        (subi t (broadcastInDim S64x8x1024 ![] bcast_S_S64x8x1024 (constantI S_ 32 1#32)))))
    (broadcastInDim S64x8x1024x128 ![0, 1, 2, 3] bcast_S1x1x1x128_S64x8x1024x128_0_1_2_3 (iotaInDim S1x1x1x128 32 3)))

/-- The mean over the 8 shots, with positions and clusters flattened into one axis of 131072 columns. -/
def shotMean (h : (⟨S64x8x1024x128, .f32⟩ : BufTy).Contents (Elt F)) : (⟨S64x131072, .f32⟩ : BufTy).Contents (Elt F) :=
  shapeCast S64x131072
    (Host.divf (Host.reduceAdd h (constant S_ .f32 0x00000000#32) reducesTo_S64x8x1024x128_S64x1024x128_d1 h_S_)
      (broadcastInDim S64x1024x128 ![] bcast_S_S64x1024x128 (constant S_ .f32 0x41000000#32)))
    shapeCasts_S64x1024x128_S64x131072

/-- The one-hot tensor with positions and clusters flattened. -/
def flatHot (h : (⟨S64x8x1024x128, .f32⟩ : BufTy).Contents (Elt F)) : (⟨S64x8x131072, .f32⟩ : BufTy).Contents (Elt F) :=
  shapeCast S64x8x131072 h shapeCasts_S64x8x1024x128_S64x8x131072

/-! ### The variance over the 64 classes -/

/-- The column means (over the 64 classes), repeated along the classes. -/
def meanA (x : (⟨S64x131072, .f32⟩ : BufTy).Contents (Elt F)) : (⟨S64x131072, .f32⟩ : BufTy).Contents (Elt F) :=
  broadcastInDim S64x131072 ![0, 1] bcast_S1x131072_S64x131072_0_1
    (Host.divf
      (broadcastInDim S1x131072 ![1] bcast_S131072_S1x131072_1
        (Host.reduceAdd x (constant S_ .f32 0x00000000#32) reducesTo_S64x131072_S131072_d0 h_S_))
      (broadcastInDim S1x131072 ![] bcast_S_S1x131072 (constant S_ .f32 0x42800000#32)))

/-- The squared deviations from the column means. -/
def sqA (x : (⟨S64x131072, .f32⟩ : BufTy).Contents (Elt F)) : (⟨S64x131072, .f32⟩ : BufTy).Contents (Elt F) :=
  mulf (subf x (meanA x)) (subf x (meanA x))

/-- The divisor `64 - ddof`. -/
def dofA (d : (⟨S_, .i32⟩ : BufTy).Contents (Elt F)) : (⟨S_, .f32⟩ : BufTy).Contents (Elt F) :=
  subf (constant S_ .f32 0x42800000#32) (sitofp .f32 d)

/-- The variance of each column, where the divisor is positive (else the fill value). -/
def varA (x : (⟨S64x131072, .f32⟩ : BufTy).Contents (Elt F)) (d : (⟨S_, .i32⟩ : BufTy).Contents (Elt F)) :
    (⟨S131072, .f32⟩ : BufTy).Contents (Elt F) :=
  select (broadcastInDim S131072 ![] bcast_S_S131072 (cmpf .ogt (dofA d) (constant S_ .f32 0x00000000#32)))
    (Host.divf (Host.reduceAdd (sqA x) (constant S_ .f32 0x00000000#32) reducesTo_S64x131072_S131072_d0 h_S_)
      (broadcastInDim S131072 ![] bcast_S_S131072 (dofA d)))
    (broadcastInDim S131072 ![] bcast_S_S131072 (id (constant S_ .f32 0x7FC00000#32)))

/-! ### The variance over the 8 shots -/

/-- The means over the 8 shots, repeated along the shots. -/
def meanB (x : (⟨S64x8x131072, .f32⟩ : BufTy).Contents (Elt F)) : (⟨S64x8x131072, .f32⟩ : BufTy).Contents (Elt F) :=
  broadcastInDim S64x8x131072 ![0, 1, 2] bcast_S64x1x131072_S64x8x131072_0_1_2
    (Host.divf
      (broadcastInDim S64x1x131072 ![0, 2] bcast_S64x131072_S64x1x131072_0_2
        (Host.reduceAdd x (constant S_ .f32 0x00000000#32) reducesTo_S64x8x131072_S64x131072_d1 h_S_))
      (broadcastInDim S64x1x131072 ![] bcast_S_S64x1x131072 (constant S_ .f32 0x41000000#32)))

/-- The squared deviations from the shot means. -/
def sqB (x : (⟨S64x8x131072, .f32⟩ : BufTy).Contents (Elt F)) : (⟨S64x8x131072, .f32⟩ : BufTy).Contents (Elt F) :=
  mulf (subf x (meanB x)) (subf x (meanB x))

/-- The divisor `8 - ddof`. -/
def dofB (d : (⟨S_, .i32⟩ : BufTy).Contents (Elt F)) : (⟨S_, .f32⟩ : BufTy).Contents (Elt F) :=
  subf (constant S_ .f32 0x41000000#32) (sitofp .f32 d)

/-- The variance over the shots, where the divisor is positive (else the fill value). -/
def varB (x : (⟨S64x8x131072, .f32⟩ : BufTy).Contents (Elt F)) (d : (⟨S_, .i32⟩ : BufTy).Contents (Elt F)) :
    (⟨S64x131072, .f32⟩ : BufTy).Contents (Elt F) :=
  select (broadcastInDim S64x131072 ![] bcast_S_S64x131072 (cmpf .ogt (dofB d) (constant S_ .f32 0x00000000#32)))
    (Host.divf (Host.reduceAdd (sqB x) (constant S_ .f32 0x00000000#32) reducesTo_S64x8x131072_S64x131072_d1 h_S_)
      (broadcastInDim S64x131072 ![] bcast_S_S64x131072 (dofB d)))
    (broadcastInDim S64x131072 ![] bcast_S_S64x131072 (id (constant S_ .f32 0x7FC00000#32)))

/-! ### The two totals and the result -/

/-- The sum over all columns of the between-class standard deviations. -/
def interTotal (t : (⟨S64x8x1024, .i32⟩ : BufTy).Contents (Elt F)) : (⟨S_, .f32⟩ : BufTy).Contents (Elt F) :=
  Host.reduceAdd (Host.sqrt (varA (shotMean (oneHot t)) (constantI S_ 32 1#32))) (constant S_ .f32 0x00000000#32)
    reducesTo_S131072_S_d0 h_S_

/-- The sum over classes and columns of the within-class standard deviations. -/
def inTotal (t : (⟨S64x8x1024, .i32⟩ : BufTy).Contents (Elt F)) : (⟨S_, .f32⟩ : BufTy).Contents (Elt F) :=
  Host.reduceAdd
    (Host.reduceAdd (Host.sqrt (varB (flatHot (oneHot t)) (constantI S_ 32 1#32))) (constant S_ .f32 0x00000000#32)
      reducesTo_S64x131072_S64_d1 h_S_)
    (constant S_ .f32 0x00000000#32) reducesTo_S64_S_d0 h_S_

/-- The program's result as a function of the label array. -/
def out (t : (⟨S64x8x1024, .i32⟩ : BufTy).Contents (Elt F)) : (⟨S_, .f32⟩ : BufTy).Contents (Elt F) :=
  addf (Host.divf (constant S_ .f32 0x3F800000#32) (interTotal t))
    (Host.divf (inTotal t) (constant S_ .f32 0x42800000#32))

/-! ## The operations -/

/-- @main's operations in order, the calls unfolded at their buffers: the label shift (3), the one-hot
    function (6), the shot mean and its flattening (7), the standard deviation over classes (the variance
    function's 20, its fill's 3, the square root) and its total and reciprocal (4), the flattening of the
    one-hot tensor (2), the standard deviation over shots (24) and its totals, the division by 64 and the sum (7). -/
abbrev ops : List (HloOp τ sig (Elt F)) :=
  [
    StableHlo.nullary main_c (constantI S_ 32 1#32),
    StableHlo.unary main_c main_v0 (broadcastInDim S64x8x1024 ![] bcast_S_S64x8x1024 : (⟨S_, .i32⟩ : BufTy).Contents (Elt F) → (⟨S64x8x1024, .i32⟩ : BufTy).Contents (Elt F)),
    StableHlo.binary main_arg0 main_v0 main_v1 (subi : (⟨S64x8x1024, .i32⟩ : BufTy).Contents (Elt F) → (⟨S64x8x1024, .i32⟩ : BufTy).Contents (Elt F) → (⟨S64x8x1024, .i32⟩ : BufTy).Contents (Elt F)),
    StableHlo.TRef.unary (.of main_v1 : StableHlo.TRef sig ⟨S64x8x1024, .i32⟩) main_call0.v0 (broadcastInDim S64x8x1024x1 ![0, 1, 2] bcast_S64x8x1024_S64x8x1024x1_0_1_2),
    StableHlo.TRef.nullary main_call0.v1 (iotaInDim S1x1x1x128 32 3),
    StableHlo.TRef.unary main_call0.v0 main_call0.v2 (broadcastInDim S64x8x1024x128 ![0, 1, 2, 3] bcast_S64x8x1024x1_S64x8x1024x128_0_1_2_3),
    StableHlo.TRef.unary main_call0.v1 main_call0.v3 (broadcastInDim S64x8x1024x128 ![0, 1, 2, 3] bcast_S1x1x1x128_S64x8x1024x128_0_1_2_3),
    StableHlo.TRef.binary main_call0.v2 main_call0.v3 main_call0.v4 (cmpi .eq),
    StableHlo.TRef.unary main_call0.v4 main_call0.v5 (uitofp .f32),
    StableHlo.nullary main_cst (constant S_ .f32 0x00000000#32),
    StableHlo.binary main_v2 main_cst main_v3 ((fun x v => Host.reduceAdd x v reducesTo_S64x8x1024x128_S64x1024x128_d1 h_S_) : (⟨S64x8x1024x128, .f32⟩ : BufTy).Contents (Elt F) → (⟨S_, .f32⟩ : BufTy).Contents (Elt F) → (⟨S64x1024x128, .f32⟩ : BufTy).Contents (Elt F)),
    StableHlo.nullary main_cst_0 (constant S_ .f32 0x41000000#32),
    StableHlo.unary main_cst_0 main_v4 (broadcastInDim S64x1024x128 ![] bcast_S_S64x1024x128 : (⟨S_, .f32⟩ : BufTy).Contents (Elt F) → (⟨S64x1024x128, .f32⟩ : BufTy).Contents (Elt F)),
    StableHlo.binary main_v3 main_v4 main_v5 (Host.divf : (⟨S64x1024x128, .f32⟩ : BufTy).Contents (Elt F) → (⟨S64x1024x128, .f32⟩ : BufTy).Contents (Elt F) → (⟨S64x1024x128, .f32⟩ : BufTy).Contents (Elt F)),
    StableHlo.reshape main_v5 main_v6 rfl shapeCasts_S64x1024x128_S64x131072,
    StableHlo.nullary main_c_1 (constantI S_ 32 1#32),
    StableHlo.TRef.nullary main_call1.call0.cst (constant S_ .f32 0x00000000#32),
    StableHlo.TRef.binary (.of main_v6 : StableHlo.TRef sig ⟨S64x131072, .f32⟩) main_call1.call0.cst main_call1.call0.v0 (fun x v => Host.reduceAdd x v reducesTo_S64x131072_S131072_d0 h_S_),
    StableHlo.TRef.unary main_call1.call0.v0 main_call1.call0.v1 (broadcastInDim S1x131072 ![1] bcast_S131072_S1x131072_1),
    StableHlo.TRef.nullary main_call1.call0.cst_0 (constant S_ .f32 0x42800000#32),
    StableHlo.TRef.unary main_call1.call0.cst_0 main_call1.call0.v2 (broadcastInDim S1x131072 ![] bcast_S_S1x131072),
    StableHlo.TRef.binary main_call1.call0.v1 main_call1.call0.v2 main_call1.call0.v3 Host.divf,
    StableHlo.TRef.unary main_call1.call0.v3 main_call1.call0.v4 (broadcastInDim S64x131072 ![0, 1] bcast_S1x131072_S64x131072_0_1),
    StableHlo.TRef.binary (.of main_v6 : StableHlo.TRef sig ⟨S64x131072, .f32⟩) main_call1.call0.v4 main_call1.call0.v5 subf,
    StableHlo.TRef.binary main_call1.call0.v5 main_call1.call0.v5 main_call1.call0.v6 mulf,
    StableHlo.TRef.unary (.of main_c_1 : StableHlo.TRef sig ⟨S_, .i32⟩) main_call1.call0.v7 (sitofp .f32),
    StableHlo.TRef.nullary main_call1.call0.cst_1 (constant S_ .f32 0x42800000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S64x131072_S131072_d0 h_S_),
    StableHlo.TRef.unary main_call1.call0.v8 main_call1.call0.v10 (broadcastInDim S131072 ![] bcast_S_S131072),
    StableHlo.TRef.binary main_call1.call0.v9 main_call1.call0.v10 main_call1.call0.v11 Host.divf,
    StableHlo.TRef.nullary main_call1.call0.cst_3 (constant S_ .f32 0x00000000#32),
    StableHlo.TRef.binary main_call1.call0.v8 main_call1.call0.cst_3 main_call1.call0.v12 (cmpf .ogt),
    StableHlo.TRef.nullary main_call1.call0.cst_4 (constant S_ .f32 0x7FC00000#32),
    StableHlo.TRef.unary main_call1.call0.cst_4 main_call1.call0.call0.v0 id,
    StableHlo.TRef.unary main_call1.call0.call0.v0 main_call1.call0.call0.v1 (broadcastInDim S131072 ![] bcast_S_S131072),
    StableHlo.TRef.ternary main_call1.call0.v12 main_call1.call0.v11 main_call1.call0.call0.v1 main_call1.call0.call0.v2 (fun p a b => select (broadcastInDim S131072 ![] bcast_S_S131072 p) a b),
    StableHlo.TRef.unary main_call1.call0.call0.v2 main_call1.v1 Host.sqrt,
    StableHlo.nullary main_cst_2 (constant S_ .f32 0x00000000#32),
    StableHlo.binary main_v7 main_cst_2 main_v8 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    StableHlo.nullary main_cst_3 (constant S_ .f32 0x3F800000#32),
    StableHlo.binary main_cst_3 main_v8 main_v9 (Host.divf : (⟨S_, .f32⟩ : BufTy).Contents (Elt F) → (⟨S_, .f32⟩ : BufTy).Contents (Elt F) → (⟨S_, .f32⟩ : BufTy).Contents (Elt F)),
    StableHlo.reshape main_v2 main_v10 rfl shapeCasts_S64x8x1024x128_S64x8x131072,
    StableHlo.nullary main_c_4 (constantI S_ 32 1#32),
    StableHlo.TRef.nullary main_call2.call0.cst (constant S_ .f32 0x00000000#32),
    StableHlo.TRef.binary (.of main_v10 : StableHlo.TRef sig ⟨S64x8x131072, .f32⟩) main_call2.call0.cst main_call2.call0.v0 (fun x v => Host.reduceAdd x v reducesTo_S64x8x131072_S64x131072_d1 h_S_),
    StableHlo.TRef.unary main_call2.call0.v0 main_call2.call0.v1 (broadcastInDim S64x1x131072 ![0, 2] bcast_S64x131072_S64x1x131072_0_2),
    StableHlo.TRef.nullary main_call2.call0.cst_0 (constant S_ .f32 0x41000000#32),
    StableHlo.TRef.unary main_call2.call0.cst_0 main_call2.call0.v2 (broadcastInDim S64x1x131072 ![] bcast_S_S64x1x131072),
    StableHlo.TRef.binary main_call2.call0.v1 main_call2.call0.v2 main_call2.call0.v3 Host.divf,
    StableHlo.TRef.unary main_call2.call0.v3 main_call2.call0.v4 (broadcastInDim S64x8x131072 ![0, 1, 2] bcast_S64x1x131072_S64x8x131072_0_1_2),
    StableHlo.TRef.binary (.of main_v10 : StableHlo.TRef sig ⟨S64x8x131072, .f32⟩) main_call2.call0.v4 main_call2.call0.v5 subf,
    StableHlo.TRef.binary main_call2.call0.v5 main_call2.call0.v5 main_call2.call0.v6 mulf,
    StableHlo.TRef.unary (.of main_c_4 : StableHlo.TRef sig ⟨S_, .i32⟩) main_call2.call0.v7 (sitofp .f32),
    StableHlo.TRef.nullary main_call2.call0.cst_1 (constant S_ .f32 0x41000000#32),
    StableHlo.TRef.binary main_call2.call0.cst_1 main_call2.call0.v7 main_call2.call0.v8 subf,
    StableHlo.TRef.nullary main_call2.call0.cst_2 (constant S_ .f32 0x00000000#32),
    StableHlo.TRef.binary main_call2.call0.v6 main_call2.call0.cst_2 main_call2.call0.v9 (fun x v => Host.reduceAdd x v reducesTo_S64x8x131072_S64x131072_d1 h_S_),
    StableHlo.TRef.unary main_call2.call0.v8 main_call2.call0.v10 (broadcastInDim S64x131072 ![] bcast_S_S64x131072),
    StableHlo.TRef.binary main_call2.call0.v9 main_call2.call0.v10 main_call2.call0.v11 Host.divf,
    StableHlo.TRef.nullary main_call2.call0.cst_3 (constant S_ .f32 0x00000000#32),
    StableHlo.TRef.binary main_call2.call0.v8 main_call2.call0.cst_3 main_call2.call0.v12 (cmpf .ogt),
    StableHlo.TRef.nullary main_call2.call0.cst_4 (constant S_ .f32 0x7FC00000#32),
    StableHlo.TRef.unary main_call2.call0.cst_4 main_call2.call0.call0.v0 id,
    StableHlo.TRef.unary main_call2.call0.call0.v0 main_call2.call0.call0.v1 (broadcastInDim S64x131072 ![] bcast_S_S64x131072),
    StableHlo.TRef.ternary main_call2.call0.v12 main_call2.call0.v11 main_call2.call0.call0.v1 main_call2.call0.call0.v2 (fun p a b => select (broadcastInDim S64x131072 ![] bcast_S_S64x131072 p) a b),
    StableHlo.TRef.unary main_call2.call0.call0.v2 main_call2.v1 Host.sqrt,
    StableHlo.nullary main_cst_5 (constant S_ .f32 0x00000000#32),
    StableHlo.binary main_v11 main_cst_5 main_v12 ((fun x v => Host.reduceAdd x v reducesTo_S64x131072_S64_d1 h_S_) : (⟨S64x131072, .f32⟩ : BufTy).Contents (Elt F) → (⟨S_, .f32⟩ : BufTy).Contents (Elt F) → (⟨S64, .f32⟩ : BufTy).Contents (Elt F)),
    StableHlo.nullary main_cst_6 (constant S_ .f32 0x00000000#32),
    StableHlo.binary main_v12 main_cst_6 main_v13 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.nullary main_cst_7 (constant S_ .f32 0x42800000#32),
    StableHlo.binary main_v13 main_cst_7 main_v14 (Host.divf : (⟨S_, .f32⟩ : BufTy).Contents (Elt F) → (⟨S_, .f32⟩ : BufTy).Contents (Elt F) → (⟨S_, .f32⟩ : BufTy).Contents (Elt F)),
    StableHlo.binary main_v9 main_v14 main_v15 (addf : (⟨S_, .f32⟩ : BufTy).Contents (Elt F) → (⟨S_, .f32⟩ : BufTy).Contents (Elt F) → (⟨S_, .f32⟩ : BufTy).Contents (Elt F)) ]

/-- @main is that straight line: with the functions' definitions unfolded at their calls, sequencing computes
    both sides to one chain of steps. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., reshape_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., binary_bufs_sub .., nullary_bufs_sub .., binary_bufs_sub .., reshape_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., binary_bufs_sub .., nullary_bufs_sub .., binary_bufs_sub .., nullary_bufs_sub .., binary_bufs_sub .., binary_bufs_sub ..⟩

/-- Every weakly fair execution of @main terminates, and every final state has each buffer at the operations'
    fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result and at the argument -/

attribute [local irreducible] Host.reduceAdd Host.divf Host.sqrt shapeCast broadcastInDim in
set_option maxRecDepth 8192 in
/-- The fold at the result buffer is `out` of the argument's contents, by computation: each operation's result
    decides whether the buffer read is the one it writes, and the typed references' casts are the identity at
    these literal references. -/
theorem out_eq (V : Valuation τ sig (Elt F)) :
    after ops V (main_v15 : DevRef τ sig) = out (V (main_arg0 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

/-- Every weakly fair execution of @main terminates with the result buffer at `out` of the label array and the
    label array unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = out (m ((c.tc : Thread nD τ).loc main_arg0))
      ∧ r.2.mem ((c.tc : Thread nD τ).loc main_arg0) = m ((c.tc : Thread nD τ).loc main_arg0) :=
  (θ_run defs _ _).mono (fun _ h c => ⟨(h c main_v15).trans (out_eq _), (h c main_arg0).trans (arg0_eq _)⟩)
    (run_fold m ρ)

end Cert.RefSide

end
-- ==== Proof.RefRead.lean ====
/-
  The stages of the reference's composed term read at an index, at the ideal values: an entry of the one-hot
  tensor is the specification's `hot`; a host sum over one axis is the sum over that axis's coordinates; the
  flattening of positions and clusters sends column `j` to position `j / 128`, cluster `j % 128`; and the two
  variance functions, applied to an array of reals, give the sample variances (divisors 63 and 7, both positive,
  so the fill value of the guarded division is never taken) and their square roots.
-/
import proofs.«113341_j75222057222180_2_alg».proof.Proof.RefRun
import proofs.«113341_j75222057222180_2_alg».proof.Proof.Spec
import proofs.«113341_j75222057222180_2_alg».proof.Proof.Consts
import Idealize.ShloMosaic.PureOps.Ideal.Laws
import Idealize.ShloMosaic.Lib.Pipeline.Value
import Idealize.ShloMosaic.Lib.ValueIdx

noncomputable section

open scoped BigOperators

namespace Cert.RefSide

open Cert.ReferenceIdeal Idealize.ShloMosaic Idealize.ShloMosaic.ValueIdx

variable [Cert.ReferenceIdeal.Facts]
open Cert.ReferenceIdeal.Facts₀ Cert.ReferenceIdeal.Facts

/-- The real number of a finite sum, read in the extended reals, is the sum of the terms read there. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A host sum over one axis from the zero pattern, read at an index: the sum over that axis's coordinates. -/
theorem reduceAdd_zero_apply {s t : Shape} {a : Fin s.rank} (h' : s.ReducesTo [a] t) (h : s.Reduces [a] t)
    (x : FVec Ideal s .f32) (hu : 0 < S_.numel) (j : t.Idx) :
    Host.reduceAdd x (constant (F := Ideal) S_ .f32 0x00000000#32) h' hu j = ∑ k : Fin (s.size a), x (h.lift j k) := by
  show Ideal.hostReduceAdd h' x (Ideal.ofBits .f32 0x00000000#32) j = _
  rw [Ideal.hostReduceAdd_single h' h, Cert.Consts.ofBits_zero, zero_add]

/-- The same with the axis's extent named, so that the sum is over a literal `Fin n`. -/
theorem reduceAdd_zero_apply' {s t : Shape} {a : Fin s.rank} (n : ℕ) (hn : s.size a = n) (h' : s.ReducesTo [a] t)
    (h : s.Reduces [a] t) (x : FVec Ideal s .f32) (hu : 0 < S_.numel) (j : t.Idx) :
    Host.reduceAdd x (constant (F := Ideal) S_ .f32 0x00000000#32) h' hu j
      = ∑ k : Fin n, x (h.lift j (k.cast hn.symm)) := by
  subst hn
  exact reduceAdd_zero_apply h' h x hu j

/-- A host sum of a one-axis array into a scalar, from the zero pattern: the sum of its entries. -/
theorem reduceAdd_zero_total1 {n : ℕ} (h' : (⟨1, ![n]⟩ : Shape).ReducesTo [0] S_) (x : FVec Ideal ⟨1, ![n]⟩ .f32)
    (hu : 0 < S_.numel) (j : S_.Idx) :
    Host.reduceAdd x (constant (F := Ideal) S_ .f32 0x00000000#32) h' hu j = ∑ k : Fin n, x (ix1 k) := by
  show Ideal.hostReduceAdd h' x (Ideal.ofBits .f32 0x00000000#32) j = _
  rw [Ideal.hostReduceAdd_total h' (fun b => b.elim0), Cert.Consts.ofBits_zero, zero_add]
  refine Fintype.sum_equiv ⟨fun i => i 0, ix1, fun i => (eq_ix1 i).symm, fun _ => rfl⟩ _ _ fun i => ?_
  exact congrArg x (eq_ix1 i)

/-- A host quotient read at an index. -/
theorem hostDivf_apply {s : Shape} (x y : FVec Ideal s .f32) (i : s.Idx) : Host.divf x y i = Ideal.div (x i) (y i) := rfl

/-- A host square root read at an index. -/
theorem hostSqrt_apply {s : Shape} (x : FVec Ideal s .f32) (i : s.Idx) : Host.sqrt x i = Ideal.sqrt (x i) := rfl

/-- A scalar repeated over a shape, read at an index. -/
theorem bcastScalar_apply {t : Shape} {α : Type} (h : S_.BroadcastsInDim t (![] : Fin 0 → Fin t.rank)) (x : S_.Idx → α)
    (j : t.Idx) : broadcastInDim t ![] h x j = x ix0 :=
  congrArg x (funext fun a => a.elim0)

/-! ## The one-hot tensor -/

/-- The shifted label, repeated along the clusters. -/
theorem label_apply (t : Cert.Spec.Labels) (c : Fin 64) (s : Fin 8) (w : Fin 1024) (k : Fin 128) :
    (broadcastInDim S64x8x1024x128 ![0, 1, 2, 3] bcast_S64x8x1024x1_S64x8x1024x128_0_1_2_3
      (broadcastInDim S64x8x1024x1 ![0, 1, 2] bcast_S64x8x1024_S64x8x1024x1_0_1_2
        (subi t (broadcastInDim S64x8x1024 ![] bcast_S_S64x8x1024 (constantI S_ 32 1#32))))) (ix4 c s w k)
      = t (ix3 c s w) - 1#32 := by
  refine (broadcastInDim_apply _ _ _ (ix4 c s w k) (ix4 c s w 0) (fun a => ?_)).trans ?_
  · match a with
    | ⟨0, _⟩ => rfl
    | ⟨1, _⟩ => rfl
    | ⟨2, _⟩ => rfl
    | ⟨3, _⟩ => rfl
  refine (broadcastInDim_apply _ _ _ (ix4 c s w 0) (ix3 c s w) (fun a => ?_)).trans ?_
  · match a with
    | ⟨0, _⟩ => rfl
    | ⟨1, _⟩ => rfl
    | ⟨2, _⟩ => rfl
  rfl

/-- The cluster number, repeated along classes, shots and positions. -/
theorem cluster_apply (c : Fin 64) (s : Fin 8) (w : Fin 1024) (k : Fin 128) :
    (broadcastInDim S64x8x1024x128 ![0, 1, 2, 3] bcast_S1x1x1x128_S64x8x1024x128_0_1_2_3 (iotaInDim S1x1x1x128 32 3))
        (ix4 c s w k) = BitVec.ofNat 32 k.val := by
  refine (broadcastInDim_apply _ _ _ (ix4 c s w k) (ix4 0 0 0 k) (fun a => ?_)).trans ?_
  · match a with
    | ⟨0, _⟩ => rfl
    | ⟨1, _⟩ => rfl
    | ⟨2, _⟩ => rfl
    | ⟨3, _⟩ => rfl
  rfl

/-- One entry of the one-hot tensor is the specification's, read in the extended reals. -/
theorem oneHot_apply (t : Cert.Spec.Labels) (c : Fin 64) (s : Fin 8) (w : Fin 1024) (k : Fin 128) :
    oneHot (F := Ideal) t (ix4 c s w k) = ((Cert.Spec.hot t c s w k : ℝ) : EReal) := by
  unfold oneHot
  show (((IntOp.cmpi .eq _ _ : BitVec 1).toNat : ℝ) : EReal) = _
  rw [label_apply, cluster_apply]
  unfold Cert.Spec.hot Cert.Spec.hotv IntOp.cmpi
  by_cases h : t (ix3 c s w) - 1#32 = BitVec.ofNat 32 k.val
  · simp [h]
  · simp [h]

/-! ## Flat columns

A flat column `j` of the 131072 is position `j / 128`, cluster `j % 128`. -/

/-- The position of a flat column. -/
def wOf (j : Fin 131072) : Fin 1024 := ⟨j.val / 128, by have := j.isLt; omega⟩
/-- The cluster of a flat column. -/
def kOf (j : Fin 131072) : Fin 128 := ⟨j.val % 128, by omega⟩

/-- The flat columns are the pairs of a position and a cluster. -/
def colEquiv : Fin 131072 ≃ Fin 1024 × Fin 128 where
  toFun j := (wOf j, kOf j)
  invFun p := ⟨128 * p.1.val + p.2.val, by have := p.1.isLt; have := p.2.isLt; omega⟩
  left_inv j := Fin.ext (by show 128 * (j.val / 128) + j.val % 128 = j.val; omega)
  right_inv p := by
    have h1 := p.1.isLt
    have h2 := p.2.isLt
    refine Prod.ext (Fin.ext ?_) (Fin.ext ?_)
    · show (128 * p.1.val + p.2.val) / 128 = p.1.val
      omega
    · show (128 * p.1.val + p.2.val) % 128 = p.2.val
      omega

/-- A sum over the flat columns is the double sum over positions and clusters. -/
theorem sum_cols {M : Type} [AddCommMonoid M] (f : Fin 1024 → Fin 128 → M) :
    ∑ j : Fin 131072, f (wOf j) (kOf j) = ∑ w : Fin 1024, ∑ k : Fin 128, f w k := by
  rw [← Fintype.sum_prod_type']
  exact Fintype.sum_equiv colEquiv _ _ fun j => rfl

/-! ## The shot mean and the flattened one-hot tensor -/

/-- The shot mean at class `c`, column `j`: the sum over the shots, divided by 8. -/
theorem shotMean_apply (h : FVec Ideal S64x8x1024x128 .f32) (c : Fin 64) (j : Fin 131072) :
    shotMean (F := Ideal) h (ix2 c j) = Ideal.div (∑ s : Fin 8, h (ix4 c s (wOf j) (kOf j))) ((8 : ℝ) : EReal) := by
  unfold shotMean
  refine (shapeCast_apply _ _ (ix2 c j) (ix3 c (wOf j) (kOf j)) ?_).trans ?_
  · rw [Shape.rowMajor_val_three, Shape.rowMajor_val_two]
    show (c.val * 1024 + j.val / 128) * 128 + j.val % 128 = c.val * 131072 + j.val
    omega
  show Ideal.div (Host.reduceAdd h _ _ _ (ix3 c (wOf j) (kOf j))) (Ideal.ofBits .f32 0x41000000#32) = _
  rw [reduceAdd_zero_apply' 8 rfl _ (by decide : S64x8x1024x128.Reduces [1] S64x1024x128), Cert.Consts.ofBits_8]
  refine congrArg (fun z => Ideal.div z _) (Finset.sum_congr rfl fun s _ => congrArg h ?_)
  funext a
  match a with
  | ⟨0, _⟩ => rfl
  | ⟨1, _⟩ => rfl
  | ⟨2, _⟩ => rfl
  | ⟨3, _⟩ => rfl

/-- The flattened one-hot tensor at class `c`, shot `s`, column `j`. -/
theorem flatHot_apply (h : FVec Ideal S64x8x1024x128 .f32) (c : Fin 64) (s : Fin 8) (j : Fin 131072) :
    flatHot (F := Ideal) h (ix3 c s j) = h (ix4 c s (wOf j) (kOf j)) := by
  unfold flatHot
  refine shapeCast_apply _ _ (ix3 c s j) (ix4 c s (wOf j) (kOf j)) ?_
  rw [Shape.rowMajor_val_four, Shape.rowMajor_val_three]
  show ((c.val * 8 + s.val) * 1024 + j.val / 128) * 128 + j.val % 128 = (c.val * 8 + s.val) * 131072 + j.val
  omega

/-! ## The variance over the 64 classes, of an array of reals -/

section VarA
variable (a : Fin 64 → Fin 131072 → ℝ)

/-- The column mean. -/
theorem meanA_apply (c : Fin 64) (j : Fin 131072) :
    meanA (F := Ideal) (fun i => ((a (i 0) (i 1) : ℝ) : EReal)) (ix2 c j) = (((∑ c', a c' j) / 64 : ℝ) : EReal) := by
  unfold meanA
  refine (broadcastInDim_apply _ _ _ (ix2 c j) (ix2 0 j) (fun b => ?_)).trans ?_
  · match b with
    | ⟨0, _⟩ => rfl
    | ⟨1, _⟩ => rfl
  rw [hostDivf_apply, bcastScalar_apply, constant_apply,
    broadcastInDim_apply _ _ _ (ix2 0 j) (ix1 j) (fun b => by match b with | ⟨0, _⟩ => rfl),
    reduceAdd_zero_apply' 64 rfl _ (by decide : S64x131072.Reduces [0] S131072), Cert.Consts.ofBits_64,
    Ideal.div_coe (by norm_num)]
  refine (congrArg (· * _) (Finset.sum_congr rfl fun k _ => (rfl : _ = ((a k j : ℝ) : EReal)))).trans ?_
  rw [← coe_sum, ← EReal.coe_mul, mul_one_div]

/-- The squared deviation from the column mean. -/
theorem sqA_apply (c : Fin 64) (j : Fin 131072) :
    sqA (F := Ideal) (fun i => ((a (i 0) (i 1) : ℝ) : EReal)) (ix2 c j)
      = (((a c j - (∑ c', a c' j) / 64) ^ 2 : ℝ) : EReal) := by
  unfold sqA
  rw [mulf_apply, subf_apply, meanA_apply]
  show (((a c j : ℝ) : EReal) - _) * (((a c j : ℝ) : EReal) - _) = _
  rw [← EReal.coe_sub, ← EReal.coe_mul, pow_two]

/-- The divisor `64 - 1`. -/
theorem dofA_one : dofA (F := Ideal) (constantI S_ 32 1#32) = fun _ => ((63 : ℝ) : EReal) := by
  funext i
  show Ideal.ofBits .f32 0x42800000#32 - (((1#32 : BitVec 32).toInt : ℝ) : EReal) = _
  rw [Cert.Consts.ofBits_64, show (1#32 : BitVec 32).toInt = 1 from by decide, ← EReal.coe_sub]
  norm_num

/-- The variance of column `j`: the divisor 63 is positive, so the fill value is not taken. -/
theorem varA_apply (j : Fin 131072) :
    varA (F := Ideal) (fun i => ((a (i 0) (i 1) : ℝ) : EReal)) (constantI S_ 32 1#32) (ix1 j)
      = (((∑ c, (a c j - (∑ c', a c' j) / 64) ^ 2) / 63 : ℝ) : EReal) := by
  unfold varA
  rw [dofA_one, select_apply, bcastScalar_apply, cmpf_apply, constant_apply, Cert.Consts.ofBits_zero]
  have hc : FloatOps.cmpf (F := Ideal) (φ := .f32) .ogt ((63 : ℝ) : EReal) 0 = 1#1 := by
    show Ideal.cmp .ogt ((63 : ℝ) : EReal) 0 = 1#1
    unfold Ideal.cmp
    simp
  rw [hc, select_one, hostDivf_apply, bcastScalar_apply,
    reduceAdd_zero_apply' 64 rfl _ (by decide : S64x131072.Reduces [0] S131072), Ideal.div_coe (by norm_num)]
  have hl : ∀ k : Fin 64, (by decide : S64x131072.Reduces [0] S131072).lift (ix1 j) (k.cast rfl) = ix2 k j := fun k =>
    funext fun b => match b with
      | ⟨0, _⟩ => rfl
      | ⟨1, _⟩ => rfl
  refine (congrArg (· * _) (Finset.sum_congr rfl fun k _ =>
    (congrArg (sqA (F := Ideal) (fun i => ((a (i 0) (i 1) : ℝ) : EReal))) (hl k)).trans (sqA_apply a k j))).trans ?_
  rw [← coe_sum, ← EReal.coe_mul, mul_one_div]

/-- The standard deviation of column `j`. -/
theorem stdA_apply (j : Fin 131072) :
    Host.sqrt (F := Ideal) (s := S131072) (φ := .f32) (varA (F := Ideal) (fun i => ((a (i 0) (i 1) : ℝ) : EReal)) (constantI S_ 32 1#32)) (ix1 j)
      = ((Real.sqrt ((∑ c, (a c j - (∑ c', a c' j) / 64) ^ 2) / 63) : ℝ) : EReal) := by
  rw [hostSqrt_apply, varA_apply, Ideal.sqrt_coe,
    if_neg (not_lt.mpr (div_nonneg (Finset.sum_nonneg fun _ _ => sq_nonneg _) (by norm_num)))]

end VarA

/-! ## The variance over the 8 shots, of an array of reals -/

section VarB
variable (b : Fin 64 → Fin 8 → Fin 131072 → ℝ)

/-- The mean over the shots. -/
theorem meanB_apply (c : Fin 64) (s : Fin 8) (j : Fin 131072) :
    meanB (F := Ideal) (fun i => ((b (i 0) (i 1) (i 2) : ℝ) : EReal)) (ix3 c s j)
      = (((∑ s', b c s' j) / 8 : ℝ) : EReal) := by
  unfold meanB
  refine (broadcastInDim_apply _ _ _ (ix3 c s j) (ix3 c 0 j) (fun d => ?_)).trans ?_
  · match d with
    | ⟨0, _⟩ => rfl
    | ⟨1, _⟩ => rfl
    | ⟨2, _⟩ => rfl
  rw [hostDivf_apply, bcastScalar_apply, constant_apply,
    broadcastInDim_apply _ _ _ (ix3 c 0 j) (ix2 c j) (fun d => by
      match d with
      | ⟨0, _⟩ => rfl
      | ⟨1, _⟩ => rfl),
    reduceAdd_zero_apply' 8 rfl _ (by decide : S64x8x131072.Reduces [1] S64x131072), Cert.Consts.ofBits_8,
    Ideal.div_coe (by norm_num)]
  refine (congrArg (· * _) (Finset.sum_congr rfl fun k _ => (rfl : _ = ((b c k j : ℝ) : EReal)))).trans ?_
  rw [← coe_sum, ← EReal.coe_mul, mul_one_div]

/-- The squared deviation from the shot mean. -/
theorem sqB_apply (c : Fin 64) (s : Fin 8) (j : Fin 131072) :
    sqB (F := Ideal) (fun i => ((b (i 0) (i 1) (i 2) : ℝ) : EReal)) (ix3 c s j)
      = (((b c s j - (∑ s', b c s' j) / 8) ^ 2 : ℝ) : EReal) := by
  unfold sqB
  rw [mulf_apply, subf_apply, meanB_apply]
  show (((b c s j : ℝ) : EReal) - _) * (((b c s j : ℝ) : EReal) - _) = _
  rw [← EReal.coe_sub, ← EReal.coe_mul, pow_two]

/-- The divisor `8 - 1`. -/
theorem dofB_one : dofB (F := Ideal) (constantI S_ 32 1#32) = fun _ => ((7 : ℝ) : EReal) := by
  funext i
  show Ideal.ofBits .f32 0x41000000#32 - (((1#32 : BitVec 32).toInt : ℝ) : EReal) = _
  rw [Cert.Consts.ofBits_8, show (1#32 : BitVec 32).toInt = 1 from by decide, ← EReal.coe_sub]
  norm_num

/-- The variance over the shots at class `c`, column `j`: the divisor 7 is positive, so the fill value is not taken. -/
theorem varB_apply (c : Fin 64) (j : Fin 131072) :
    varB (F := Ideal) (fun i => ((b (i 0) (i 1) (i 2) : ℝ) : EReal)) (constantI S_ 32 1#32) (ix2 c j)
      = (((∑ s, (b c s j - (∑ s', b c s' j) / 8) ^ 2) / 7 : ℝ) : EReal) := by
  unfold varB
  rw [dofB_one, select_apply, bcastScalar_apply, cmpf_apply, constant_apply, Cert.Consts.ofBits_zero]
  have hc : FloatOps.cmpf (F := Ideal) (φ := .f32) .ogt ((7 : ℝ) : EReal) 0 = 1#1 := by
    show Ideal.cmp .ogt ((7 : ℝ) : EReal) 0 = 1#1
    unfold Ideal.cmp
    simp
  rw [hc, select_one, hostDivf_apply, bcastScalar_apply,
    reduceAdd_zero_apply' 8 rfl _ (by decide : S64x8x131072.Reduces [1] S64x131072), Ideal.div_coe (by norm_num)]
  have hl : ∀ k : Fin 8, (by decide : S64x8x131072.Reduces [1] S64x131072).lift (ix2 c j) (k.cast rfl) = ix3 c k j := fun k =>
    funext fun d => match d with
      | ⟨0, _⟩ => rfl
      | ⟨1, _⟩ => rfl
      | ⟨2, _⟩ => rfl
  refine (congrArg (· * _) (Finset.sum_congr rfl fun k _ =>
    (congrArg (sqB (F := Ideal) (fun i => ((b (i 0) (i 1) (i 2) : ℝ) : EReal))) (hl k)).trans (sqB_apply b c k j))).trans ?_
  rw [← coe_sum, ← EReal.coe_mul, mul_one_div]

/-- The standard deviation over the shots at class `c`, column `j`. -/
theorem stdB_apply (c : Fin 64) (j : Fin 131072) :
    Host.sqrt (F := Ideal) (s := S64x131072) (φ := .f32) (varB (F := Ideal) (fun i => ((b (i 0) (i 1) (i 2) : ℝ) : EReal)) (constantI S_ 32 1#32)) (ix2 c j)
      = ((Real.sqrt ((∑ s, (b c s j - (∑ s', b c s' j) / 8) ^ 2) / 7) : ℝ) : EReal) := by
  rw [hostSqrt_apply, varB_apply, Ideal.sqrt_coe,
    if_neg (not_lt.mpr (div_nonneg (Finset.sum_nonneg fun _ _ => sq_nonneg _) (by norm_num)))]

end VarB

end Cert.RefSide

end
-- ==== Proof.RefValue.lean ====
/-
  The reference's result is the specification's `loss`: the stages of its composed term, read over the label
  array, are the shot counts over 8, the between-class and within-class standard deviations, and their totals over
  the 131072 flat columns re-indexed as the double sums over positions and clusters.
-/
import proofs.«113341_j75222057222180_2_alg».proof.Proof.RefRead
import proofs.«113341_j75222057222180_2_alg».proof.Proof.Spec
import proofs.«113341_j75222057222180_2_alg».proof.Proof.Consts
import Idealize.ShloMosaic.PureOps.Ideal.Laws
import Idealize.ShloMosaic.Lib.Pipeline.Value
import Idealize.ShloMosaic.Lib.ValueIdx

noncomputable section

open scoped BigOperators

namespace Cert.RefSide

open Cert.ReferenceIdeal Idealize.ShloMosaic Idealize.ShloMosaic.ValueIdx Idealize.ShloMosaic.TcCoe Idealize.SL.Sem

variable [Cert.ReferenceIdeal.Facts]
open Cert.ReferenceIdeal.Facts₀ Cert.ReferenceIdeal.Facts

/-! ## The program's stages over the label array -/

section Conclude
variable (t : Cert.Spec.Labels)

/-- The shot mean of the one-hot tensor: the counts over 8. -/
theorem shotMean_oneHot :
    shotMean (F := Ideal) (oneHot t)
      = fun i => ((Cert.Spec.cnt t (i 0) (wOf (i 1)) (kOf (i 1)) / 8 : ℝ) : EReal) := by
  funext i
  obtain ⟨c, j, rfl⟩ : ∃ c j, i = ix2 c j := ⟨i 0, i 1, eq_ix2 i⟩
  rw [shotMean_apply]
  simp only [oneHot_apply]
  rw [← coe_sum, Ideal.div_coe (by norm_num), ← EReal.coe_mul, mul_one_div]
  rfl

/-- The flattened one-hot tensor: the specification's entries. -/
theorem flatHot_oneHot :
    flatHot (F := Ideal) (oneHot t)
      = fun i => ((Cert.Spec.hot t (i 0) (i 1) (wOf (i 2)) (kOf (i 2)) : ℝ) : EReal) := by
  funext i
  obtain ⟨c, s, j, rfl⟩ : ∃ c s j, i = ix3 c s j := ⟨i 0, i 1, i 2, eq_ix3 i⟩
  rw [flatHot_apply, oneHot_apply]

/-- The between-class total. -/
theorem interTotal_eq : interTotal (F := Ideal) t = fun _ => ((Cert.Spec.interSum t : ℝ) : EReal) := by
  funext i
  unfold interTotal
  rw [shotMean_oneHot, reduceAdd_zero_total1]
  refine (Finset.sum_congr rfl fun j _ => stdA_apply (fun c j => Cert.Spec.cnt t c (wOf j) (kOf j) / 8) j).trans ?_
  rw [← coe_sum]
  exact congrArg _ (sum_cols fun w k => Cert.Spec.spread t w k)

/-- The within-class total. -/
theorem inTotal_eq : inTotal (F := Ideal) t = fun _ => ((Cert.Spec.inSum t : ℝ) : EReal) := by
  funext i
  unfold inTotal
  rw [flatHot_oneHot, reduceAdd_zero_total1]
  have hrow : ∀ c : Fin 64,
      Host.reduceAdd
          (Host.sqrt (F := Ideal) (s := S64x131072) (φ := .f32)
            (varB (F := Ideal)
              (fun i => ((Cert.Spec.hot t (i 0) (i 1) (wOf (i 2)) (kOf (i 2)) : ℝ) : EReal)) (constantI S_ 32 1#32)))
          (constant (F := Ideal) S_ .f32 0x00000000#32) reducesTo_S64x131072_S64_d1 h_S_ (ix1 c)
        = ((∑ w : Fin 1024, ∑ k : Fin 128, Cert.Spec.within t c w k : ℝ) : EReal) := by
    intro c
    rw [reduceAdd_zero_apply' 131072 rfl _ (by decide : S64x131072.Reduces [1] S64)]
    have hl : ∀ j : Fin 131072, (by decide : S64x131072.Reduces [1] S64).lift (ix1 c) (j.cast rfl) = ix2 c j := fun j =>
      funext fun d => match d with
        | ⟨0, _⟩ => rfl
        | ⟨1, _⟩ => rfl
    refine (Finset.sum_congr rfl fun j _ =>
      (congrArg (Host.sqrt (F := Ideal) (s := S64x131072) (φ := .f32) _) (hl j)).trans
        (stdB_apply (fun c s j => Cert.Spec.hot t c s (wOf j) (kOf j)) c j)).trans ?_
    rw [← coe_sum]
    exact congrArg _ (sum_cols fun w k => Cert.Spec.within t c w k)
  refine (Finset.sum_congr rfl fun c _ => hrow c).trans ?_
  rw [← coe_sum]
  rfl

/-- The program's result is the specification's. -/
theorem out_eq_loss : out (F := Ideal) t = fun _ => Cert.Spec.loss t := by
  funext i
  unfold out
  rw [addf_apply, hostDivf_apply, hostDivf_apply, constant_apply, constant_apply, interTotal_eq, inTotal_eq,
    Cert.Consts.ofBits_one, Cert.Consts.ofBits_64, EReal.coe_one]
  rfl

end Conclude

/-- Every weakly fair execution of the reference terminates with its result buffer at the specification's `loss`
    of the label array, and the label array unchanged. -/
theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v15)
          = (fun _ => Cert.Spec.loss (m ((c.tc : Thread Cert.ReferenceIdeal.nD Cert.ReferenceIdeal.τ).loc Cert.ReferenceIdeal.main_arg0)))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run _ _ _).mono (fun _ h c => ⟨(h c).1.trans (out_eq_loss _), (h c).2⟩) (run_out m g)

end Cert.RefSide

end
-- ==== Proof.lean ====
/-
  The certificate: a Pallas kernel that scores how well 8 shots of 64 classes are clustered — for each position and
  cluster it counts the shots hitting the cluster, takes the sample standard deviation of the shot means across classes
  (summed over positions and clusters, then inverted) and of the one-hot entries within each class (summed and averaged
  over classes) — against the plain jnp reference that materializes the one-hot tensor.

  Over the extended reals both programs compute the specification's `loss` of the label array (Proof/Spec.lean):

    kernel     the grid's eight steps each add their tile's two shares to two running totals (Proof/Pieces.lean,
               Proof/Totals.lean: what the buffers hold after each step, by induction on the step); the shares are the
               specification's terms over the tile's positions (Proof/BodyCount.lean, Proof/BodyValue.lean with the
               real-number identities of Proof/Moments.lean: the variance of a 0/1 sequence with n ones among 8 is
               n(8 - n)/56, and sqrt(x)/8 = sqrt(x/64)); the per-core totals end in the two result arrays
               (Proof/Arrays.lean), the host combines them (Proof/Tail.lean), and the eight tiles are all 1024 positions
               (Proof/Tiles.lean, Proof/KernelValue.lean).
    reference  its straight line of host operations run and read back stage by stage (Proof/RefRun.lean,
               Proof/RefRead.lean), its sums over the 131072 flat columns re-indexed as sums over positions and clusters
               (Proof/RefValue.lean).

  Every value is a finite real (the input is integer labels), so no precondition is used; the three frames are the
  generated ones and the reference's run with its result dropped; the idealization rewrote nothing.
-/
import proofs.«113341_j75222057222180_2_alg».proof.Defs
import proofs.«113341_j75222057222180_2_alg».proof.Proof.Gen.Kernel
import proofs.«113341_j75222057222180_2_alg».proof.Proof.Gen.Kernel.Frame
import proofs.«113341_j75222057222180_2_alg».proof.Proof.Gen.KernelIdeal
import proofs.«113341_j75222057222180_2_alg».proof.Proof.Gen.KernelIdeal.Frame
import proofs.«113341_j75222057222180_2_alg».proof.Proof.Gen.ReferenceIdeal
import proofs.«113341_j75222057222180_2_alg».proof.Proof.KernelValue
import proofs.«113341_j75222057222180_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.RefSide.run m ρ)

/-- Both programs end at the specification's `loss` of label arrays that agree. -/
theorem algebraic : Cert.algebraic_KernelIdeal_ReferenceIdeal := by
  intro m ρ m' ρ' _ hagree
  refine ⟨fun c => fun _ => Cert.Spec.loss (Cert.KernelSide.labels m c), Cert.KernelSide.run_value m ρ, ?_⟩
  refine (θ_run Cert.ReferenceIdeal.defs _ _).mono (fun _ h c => ⟨(h c).1.trans ?_, (h c).2⟩) (Cert.RefSide.run m' ρ')
  rw [hagree c]
  rfl

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
